-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x1024 : Shape := ⟨3, ![64, 2048, 1024]⟩
abbrev S64x1024 : Shape := ⟨2, ![64, 1024]⟩
abbrev S_ : Shape := ⟨0, ![]⟩

class Facts : Prop where
  bcast_S_S64x2048x1024 : S_.BroadcastsInDim S64x2048x1024 (![] : Fin 0 → Fin S64x2048x1024.rank)
  reducesTo_S64x2048x1024_S_d0_1_2 : S64x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S64x2048x1024 .f32) (main_arg1 : FVec F S64x1024 .f32) : IVec S_ 1 :=
  let main_v0 : FVec F S64x2048x1024 .f32 := Host.absf main_arg0
  let main_cst : FVec F S_ .f32 := constant S_ .f32 0x7F800000#32
  let main_v1 : FVec F S64x2048x1024 .f32 := broadcastInDim S64x2048x1024 ![] bcast_S_S64x2048x1024 main_cst
  let main_v2 : IVec S64x2048x1024 1 := cmpf .olt main_v0 main_v1
  let main_c : IVec S_ 1 := constantI S_ 1 1#1
  let main_v3 : IVec S_ 1 := (fun x v => Host.reduce IntOp.andi x v reducesTo_S64x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S64x2048x1024 : Shape := ⟨3, ![64, 2048, 1024]⟩
abbrev S64x1024 : Shape := ⟨2, ![64, 1024]⟩
abbrev S64x1x1024 : Shape := ⟨3, ![64, 1, 1024]⟩
abbrev S64x1x2048 : Shape := ⟨3, ![64, 1, 2048]⟩
abbrev S8x1x1024 : Shape := ⟨3, ![8, 1, 1024]⟩
abbrev S8x512x1024 : Shape := ⟨3, ![8, 512, 1024]⟩
abbrev S8x1x2048 : Shape := ⟨3, ![8, 1, 2048]⟩
abbrev S8x1x1 : Shape := ⟨3, ![8, 1, 1]⟩
abbrev S8x1x512 : Shape := ⟨3, ![8, 1, 512]⟩
abbrev S8x1 : Shape := ⟨2, ![8, 1]⟩

abbrev nBuf : Space → Nat
  | .hbm => 4
  | .vmem => 9
  | .smem => 0
  | _ => 0

abbrev bufTy : (tb : Table) → Fin (tcTables nBuf tb) → BufTy
  | .hbm, ⟨0, _⟩ => ⟨S64x2048x1024, .f32⟩
  | .hbm, ⟨1, _⟩ => ⟨S64x1024, .f32⟩
  | .hbm, ⟨2, _⟩ => ⟨S64x1x1024, .f32⟩
  | .hbm, ⟨3, _⟩ => ⟨S64x1x2048, .f32⟩
  | .local _ .vmem, ⟨0, _⟩ => ⟨S8x1x1024, .f32⟩
  | .local _ .vmem, ⟨1, _⟩ => ⟨S8x1x1024, .f32⟩
  | .local _ .vmem, ⟨2, _⟩ => ⟨S8x512x1024, .f32⟩
  | .local _ .vmem, ⟨3, _⟩ => ⟨S8x512x1024, .f32⟩
  | .local _ .vmem, ⟨4, _⟩ => ⟨S8x1x2048, .f32⟩
  | .local _ .vmem, ⟨5, _⟩ => ⟨S8x1x2048, .f32⟩
  | .local _ .vmem, ⟨6, _⟩ => ⟨S8x1x1, .f32⟩
  | .local _ .vmem, ⟨7, _⟩ => ⟨S8x1x1, .f32⟩
  | .local _ .vmem, ⟨8, _⟩ => ⟨S8x1x1024, .f32⟩
  | _, _ => ⟨S64x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_27 : BitVec 32 := 0#32
  let v37 : BitVec 1 := Scalar.cmpi .ne v36 c0_i32_27
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S64x1024_S64x1x1024_0_2 : S64x1024.BroadcastsInDim S64x1x1024 (![0, 2] : Fin 2 → Fin S64x1x1024.rank)
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1x1024 : S8x1x1024.ShapeCasts S8x1x1024
  inb_S8x512x1024_S8x512x1024_0_0_0 : ∀ a, (![0, 0, 0] : Fin 3 → Nat) a + S8x512x1024.size a ≤ S8x512x1024.size a
  h_S8x512x1024 : 0 < S8x512x1024.numel
  reduces_S8x1x512_S8x1 : S8x1x512.Reduces [2] S8x1
  shapeCasts_S8x1_S8x1x1 : S8x1.ShapeCasts S8x1x1
  broadcasts_S8x1x1_S8x1x512 : S8x1x1.Broadcasts S8x1x512
  broadcasts_S8x1x1_S8x1x1024 : S8x1x1.Broadcasts S8x1x1024
  concatenates_S8x1x1024_S8x1x1024_S8x1x2048_d2 : Shape.Concatenates [S8x1x1024, S8x1x1024] S8x1x2048 2
  inb_S8x1x2048_S8x1x2048_0_0_0 : ∀ a, (![0, 0, 0] : Fin 3 → Nat) a + S8x1x2048.size a ≤ S8x1x2048.size a
  h_S8x1x2048 : 0 < S8x1x2048.numel
  dot_S8x1x1024_S8x512x1024_S8x1x512_2_2_1_1_0_0_wf : DotDims.WF S8x1x1024 S8x512x1024 S8x1x512 [2] [2] [1] [1] [0] [0]
  dot_S8x1x512_S8x512x1024_S8x1x1024_2_1_1_2_0_0_wf : DotDims.WF S8x1x512 S8x512x1024 S8x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x1024.size a ≤ S64x1x1024.size a
  hwx0_0 : ∀ i : grid0.Coords, EltTy.bits .f32 = 32 ∨ (Rect.block (s := S64x1x1024) S8x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x1024.size a ≤ S64x2048x1024.size a
  hwx0_1 : ∀ i : grid0.Coords, EltTy.bits .f32 = 32 ∨ (Rect.block (s := S64x2048x1024) S8x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x2048.size a ≤ S64x1x2048.size a
  hwx0_2 : ∀ i : grid0.Coords, EltTy.bits .f32 = 32 ∨ (Rect.block (s := S64x1x2048) S8x1x2048.size (cc0_transform_2 i) (hinb0_2 i)).WholeWords (EltTy.packing .f32)

variable [Facts₀]

def dot_S8x1x1024_S8x512x1024_S8x1x512_2_2_1_1_0_0 : DotDims S8x1x1024 S8x512x1024 S8x1x512 where
  lhsContracting := [2]
  rhsContracting := [2]
  lhsNonContracting := [1]
  rhsNonContracting := [1]
  lhsBatch := [0]
  rhsBatch := [0]
  wf := dot_S8x1x1024_S8x512x1024_S8x1x512_2_2_1_1_0_0_wf
def dot_S8x1x512_S8x512x1024_S8x1x1024_2_1_1_2_0_0 : DotDims S8x1x512 S8x512x1024 S8x1x1024 where
  lhsContracting := [2]
  rhsContracting := [1]
  lhsNonContracting := [1]
  rhsNonContracting := [2]
  lhsBatch := [0]
  rhsBatch := [0]
  wf := dot_S8x1x512_S8x512x1024_S8x1x1024_2_1_1_2_0_0_wf

abbrev win0_0 : Pipeline.Window sig grid0 :=
  Pipeline.Window.ofSpec (Memref.whole main_v0) S8x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x1024 : Shape := ⟨3, ![64, 2048, 1024]⟩
abbrev S64x1024 : Shape := ⟨2, ![64, 1024]⟩
abbrev S64x1x1024 : Shape := ⟨3, ![64, 1, 1024]⟩
abbrev S64x1x2048 : Shape := ⟨3, ![64, 1, 2048]⟩
abbrev S_ : Shape := ⟨0, ![]⟩
abbrev S64x1 : Shape := ⟨2, ![64, 1]⟩
abbrev S64x1x1 : Shape := ⟨3, ![64, 1, 1]⟩

abbrev nBuf : Space → Nat
  | .hbm => 20
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S64x1024, .f32⟩
  | .hbm, ⟨2, _⟩ => ⟨S64x1x1024, .f32⟩
  | .hbm, ⟨3, _⟩ => ⟨S64x1x2048, .f32⟩
  | .hbm, ⟨4, _⟩ => ⟨S_, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S64x1x1, .f32⟩
  | .hbm, ⟨10, _⟩ => ⟨S64x1x2048, .f32⟩
  | .hbm, ⟨11, _⟩ => ⟨S64x1x2048, .f32⟩
  | .hbm, ⟨12, _⟩ => ⟨S64x1x2048, .f32⟩
  | .hbm, ⟨13, _⟩ => ⟨S_, .f32⟩
  | .hbm, ⟨14, _⟩ => ⟨S64x1, .f32⟩
  | .hbm, ⟨15, _⟩ => ⟨S64x1x1, .f32⟩
  | .hbm, ⟨16, _⟩ => ⟨S64x1x2048, .f32⟩
  | .hbm, ⟨17, _⟩ => ⟨S64x1x2048, .f32⟩
  | .hbm, ⟨18, _⟩ => ⟨S64x1x1024, .f32⟩
  | .hbm, ⟨19, _⟩ => ⟨S64x1x2048, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  bcast_S64x1024_S64x1x1024_0_2 : S64x1024.BroadcastsInDim S64x1x1024 (![0, 2] : Fin 2 → Fin S64x1x1024.rank)
  reducesTo_S64x1x2048_S64x1_d2 : S64x1x2048.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x2048_0_1_2 : S64x1x1.BroadcastsInDim S64x1x2048 (![0, 1, 2] : Fin 3 → Fin S64x1x2048.rank)
  concatenates_S64x1x1024_S64x1x1024_S64x1x2048_d2 : Shape.Concatenates [S64x1x1024, S64x1x1024] S64x1x2048 2
  dot_S64x1x1024_S64x2048x1024_S64x1x2048_2_2_1_1_0_0_wf : DotDims.WF S64x1x1024 S64x2048x1024 S64x1x2048 [2] [2] [1] [1] [0] [0]
  dot_S64x1x2048_S64x2048x1024_S64x1x1024_2_1_1_2_0_0_wf : DotDims.WF S64x1x2048 S64x2048x1024 S64x1x1024 [2] [1] [1] [2] [0] [0]

variable [Facts₀]

def dot_S64x1x1024_S64x2048x1024_S64x1x2048_2_2_1_1_0_0 : DotDims S64x1x1024 S64x2048x1024 S64x1x2048 where
  lhsContracting := [2]
  rhsContracting := [2]
  lhsNonContracting := [1]
  rhsNonContracting := [1]
  lhsBatch := [0]
  rhsBatch := [0]
  wf := dot_S64x1x1024_S64x2048x1024_S64x1x2048_2_2_1_1_0_0_wf
def dot_S64x1x2048_S64x2048x1024_S64x1x1024_2_1_1_2_0_0 : DotDims S64x1x2048 S64x2048x1024 S64x1x1024 where
  lhsContracting := [2]
  rhsContracting := [1]
  lhsNonContracting := [1]
  rhsNonContracting := [2]
  lhsBatch := [0]
  rhsBatch := [0]
  wf := dot_S64x1x2048_S64x2048x1024_S64x1x1024_2_1_1_2_0_0_wf

class Facts : Prop extends Facts₀ where

variable [Facts]
-- ==== Proof.Pieces.lean ====
import proofs.«156267_j3332894622054_2_alg».proof.Proof.Gen.KernelIdeal.Frame
import Idealize.ShloMosaic.Lib.Pipeline.Value
import Idealize.ShloMosaic.Lib.Tactic

/-!
# What one grid point leaves behind

At every grid point the body takes the query block `x0`, the key block `x1` and what the three carried buffers
held (the running maximum, the running sum, the running weighted sum) and leaves in them the new maximum, the
rescaled sum plus the tile's sum, and the rescaled weighted sum plus the tile's weighted sum. At a row's first tile
the carried buffers are first reset to `-∞`, `0`, `0`; at its last tile the output block is written: the query
followed by the quotient of the two sums.
-/

noncomputable section

namespace Cert.Attn.Kernel

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

variable (c : Dev nD) (i : grid0.Coords)
  (a2 : Memref sig .tc .vmem S8x1x1024 .f32) (h2 : a2.IsWhole) (a3 : Memref sig .tc .vmem S8x512x1024 .f32) (h3 : a3.IsWhole)
  (a4 : Memref sig .tc .vmem S8x1x2048 .f32) (h4 : a4.IsWhole) (a5 : Memref sig .tc .vmem S8x1x1 .f32) (h5 : a5.IsWhole)
  (a6 : Memref sig .tc .vmem S8x1x1 .f32) (h6 : a6.IsWhole) (a7 : Memref sig .tc .vmem S8x1x1024 .f32) (h7 : a7.IsWhole)
  (x0 : Vec F S8x1x1024 .f32) (x1 : Vec F S8x512x1024 .f32)
  (xs0 xs1 : Vec F S8x1x1 .f32) (xs2 : Vec F S8x1x1024 .f32)

/-! ## A middle tile -/

/-- The running maximum after a middle tile. -/
theorem max_B (hc0 : ¬cond0_0 i) (hc1 : ¬cond0_1 i) :
    sout0_B_0 c i a2 h2 a3 h3 a4 h4 a5 h5 a6 h6 a7 h7 hc0 hc1 x0 x1 xs0 xs1 xs2 = k0_pay2 (k0_pay9 x0 x1 xs0) := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The running sum after a middle tile. -/
theorem sum_B (hc0 : ¬cond0_0 i) (hc1 : ¬cond0_1 i) :
    sout0_B_1 c i a2 h2 a3 h3 a4 h4 a5 h5 a6 h6 a7 h7 hc0 hc1 x0 x1 xs0 xs1 xs2 = k0_pay12 x0 x1 xs0 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The running weighted sum after a middle tile. -/
theorem acc_B (hc0 : ¬cond0_0 i) (hc1 : ¬cond0_1 i) :
    sout0_B_2 c i a2 h2 a3 h3 a4 h4 a5 h5 a6 h6 a7 h7 hc0 hc1 x0 x1 xs0 xs1 xs2 = k0_pay1 (k0_pay13 x0 x1 xs0 xs2) := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-! ## The last tile -/

/-- The running maximum after the last tile. -/
theorem max_C (hc0 : ¬cond0_0 i) (hc1 : cond0_1 i) :
    sout0_C_0 c i a2 h2 a3 h3 a4 h4 a5 h5 a6 h6 a7 h7 hc0 hc1 x0 x1 xs0 xs1 xs2 = k0_pay2 (k0_pay9 x0 x1 xs0) := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The running sum after the last tile. -/
theorem sum_C (hc0 : ¬cond0_0 i) (hc1 : cond0_1 i) :
    sout0_C_1 c i a2 h2 a3 h3 a4 h4 a5 h5 a6 h6 a7 h7 hc0 hc1 x0 x1 xs0 xs1 xs2 = k0_pay12 x0 x1 xs0 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The running weighted sum after the last tile. -/
theorem acc_C (hc0 : ¬cond0_0 i) (hc1 : cond0_1 i) :
    sout0_C_2 c i a2 h2 a3 h3 a4 h4 a5 h5 a6 h6 a7 h7 hc0 hc1 x0 x1 xs0 xs1 xs2 = k0_pay1 (k0_pay13 x0 x1 xs0 xs2) := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The output block after the last tile: the query, then the weighted sum over the sum. -/
theorem out_C (hc0 : ¬cond0_0 i) (hc1 : cond0_1 i) :
    out0_C_2 c i a2 h2 a3 h3 a4 h4 a5 h5 a6 h6 a7 h7 hc0 hc1 x0 x1 xs0 xs1 xs2 = k0_pay3 (k0_pay7 x0) (k0_pay1 (k0_pay13 x0 x1 xs0 xs2)) (k0_pay12 x0 x1 xs0 xs1) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  try sl_unfold_words
  rw [View.canon_unit_zero hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-! ## The first tile: the carried buffers are reset before they are read -/

/-- The running maximum after the first tile, from the reset value. -/
theorem max_A (hc0 : cond0_0 i) (hc1 : ¬cond0_1 i) :
    sout0_A_0 c i a2 h2 a3 h3 a4 h4 a5 h5 a6 h6 a7 h7 hc0 hc1 x0 x1 = k0_pay2 (k0_pay9 x0 x1 k0_pay4) := by
  unfold sout0_A_0
  rw [View.read_writes_eq_canon _ _ _ (scover0_A_0 c i a2 h2 a3 h3 a4 h4 a5 h5 a6 h6 a7 h7 hc0 hc1 x0 x1)]
  unfold kernelRun0_A
  dsimp only
  try sl_unfold_words
  rw [View.canon_cons_unit_zero (S := S8x1x1) hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The running sum after the first tile, from the reset values. -/
theorem sum_A (hc0 : cond0_0 i) (hc1 : ¬cond0_1 i) :
    sout0_A_1 c i a2 h2 a3 h3 a4 h4 a5 h5 a6 h6 a7 h7 hc0 hc1 x0 x1 = k0_pay12 x0 x1 k0_pay4 k0_pay5 := by
  unfold sout0_A_1
  rw [View.read_writes_eq_canon _ _ _ (scover0_A_1 c i a2 h2 a3 h3 a4 h4 a5 h5 a6 h6 a7 h7 hc0 hc1 x0 x1)]
  unfold kernelRun0_A
  dsimp only
  try sl_unfold_words
  rw [View.canon_cons_unit_zero (S := S8x1x1) hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

/-- The running weighted sum after the first tile, from the reset values. -/
theorem acc_A (hc0 : cond0_0 i) (hc1 : ¬cond0_1 i) :
    sout0_A_2 c i a2 h2 a3 h3 a4 h4 a5 h5 a6 h6 a7 h7 hc0 hc1 x0 x1 = k0_pay1 (k0_pay13 x0 x1 k0_pay4 k0_pay6) := by
  unfold sout0_A_2
  rw [View.read_writes_eq_canon _ _ _ (scover0_A_2 c i a2 h2 a3 h3 a4 h4 a5 h5 a6 h6 a7 h7 hc0 hc1 x0 x1)]
  unfold kernelRun0_A
  dsimp only
  try sl_unfold_words
  rw [View.canon_cons_unit_zero (S := S8x1x1024) hz3]
  try simp only [View.readAt_eq_ld, h2.read_unread, h3.read_unread, h4.read_unread, h5.read_unread, h6.read_unread, h7.read_unread,
    View.ld_unit_zero (S := S8x1x1024) hz3, View.ld_unit_zero (S := S8x512x1024) hz3, View.ld_unit_zero (S := S8x1x1) hz3,
    View.ld_unit_zero (S := S8x1x2048) hz3]
  try simp only [View.readCov_unit_zero (S := S8x1x1) _ hz3, View.readCov_unit_zero (S := S8x1x1024) _ hz3]

end Cert.Attn.Kernel

end
-- ==== Proof.Payloads.lean ====
import proofs.«156267_j3332894622054_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The body's arithmetic, entry by entry

Row `b` of a block is one batch row. Its scores against the tile's 512 keys are dot products over the 1024 features;
the new maximum is the old one against the largest score; the rescaling factor is `exp (old - new)`; each key's weight
is `exp (score - new)`; the new sum is the rescaled old sum plus the weights' sum; column `h` of the new weighted sum is
the rescaled old entry plus the weights against column `h` of the keys. The output row is the query row followed by
the weighted sums divided by the sum.
-/

noncomputable section

namespace Cert.Attn.Kernel

open Idealize.ShloMosaic Idealize.ShloMosaic.ValueIdx
open Cert.KernelIdeal Cert.KernelIdeal.Gen

variable (x0 : Vec Ideal S8x1x1024 .f32) (x1 : Vec Ideal S8x512x1024 .f32)
  (xs0 xs1 : Vec Ideal S8x1x1 .f32) (xs2 : Vec Ideal S8x1x1024 .f32)

/-! ## The layout operations and the constants, read at an index -/

/-- The pattern `0xFF800000` is `-∞`. -/
theorem ofBits_neg_inf : Ideal.ofBits .f32 0xFF800000#32 = (⊥ : EReal) := by
  simp [Ideal.ofBits, Ideal.ieee]

/-- A column `[8,1]` viewed `[8,1,1]` reads `(b, 0)` at `(b, 0, 0)`. -/
theorem cast_keepdims_apply {α : Type} (v : S8x1.Idx → α) (b : Fin 8) :
    shapeCast S8x1x1 v shapeCasts_S8x1_S8x1x1 (ix3 b 0 0) = v (ix2 b 0) := by
  refine shapeCast_apply v shapeCasts_S8x1_S8x1x1 (ix3 b 0 0) (ix2 b 0) ?_
  rw [Shape.rowMajor_val_two, Shape.rowMajor_val_three]
  show b.val * 1 + 0 = (b.val * 1 + 0) * 1 + 0
  omega

/-- A column `[8,1,1]` broadcast along 512 lanes reads `(b, 0, 0)` at `(b, 0, j)`. -/
theorem bcast512_apply {α : Type} (v : S8x1x1.Idx → α) (b : Fin 8) (j : Fin 512) :
    broadcastTo S8x1x512 v broadcasts_S8x1x1_S8x1x512 (ix3 b 0 j) = v (ix3 b 0 0) := by
  refine broadcastTo_apply v broadcasts_S8x1x1_S8x1x512 (ix3 b 0 j) (ix3 b 0 0) fun a => ?_
  match a with
  | ⟨0, _⟩ => show b.val = if (8 : Nat) = 1 then 0 else b.val; rw [if_neg (by decide)]
  | ⟨1, _⟩ => show (0 : Nat) = if (1 : Nat) = 1 then 0 else _; rw [if_pos rfl]
  | ⟨2, _⟩ => show (0 : Nat) = if (1 : Nat) = 1 then 0 else _; rw [if_pos rfl]

/-- A column `[8,1,1]` broadcast along 1024 lanes reads `(b, 0, 0)` at `(b, 0, h)`. -/
theorem bcast1024_apply {α : Type} (v : S8x1x1.Idx → α) (b : Fin 8) (h : Fin 1024) :
    broadcastTo S8x1x1024 v broadcasts_S8x1x1_S8x1x1024 (ix3 b 0 h) = v (ix3 b 0 0) := by
  refine broadcastTo_apply v broadcasts_S8x1x1_S8x1x1024 (ix3 b 0 h) (ix3 b 0 0) fun a => ?_
  match a with
  | ⟨0, _⟩ => show b.val = if (8 : Nat) = 1 then 0 else b.val; rw [if_neg (by decide)]
  | ⟨1, _⟩ => show (0 : Nat) = if (1 : Nat) = 1 then 0 else _; rw [if_pos rfl]
  | ⟨2, _⟩ => show (0 : Nat) = if (1 : Nat) = 1 then 0 else _; rw [if_pos rfl]

/-- The index `(b, 0)` with the lane `k` inserted on the reduced axis is `(b, 0, k)`. -/
theorem lift_eq (b : Fin 8) (k : Fin 512) : reduces_S8x1x512_S8x1.lift (ix2 b 0) k = ix3 b 0 k :=
  funext fun a => Fin.ext (by match a with | ⟨0, _⟩ => rfl | ⟨1, _⟩ => rfl | ⟨2, _⟩ => rfl)

/-- The lane sum of a `[8,1,512]` vector at `(b, 0)`. -/
theorem reduce_add_apply (src : FVec Ideal S8x1x512 .f32) (b : Fin 8) :
    multiReduction (F := Ideal) .add [2] S8x1 src 0x00000000#32 reduces_S8x1x512_S8x1 (.inl rfl) rfl (ix2 b 0)
      = ∑ j : Fin 512, src (ix3 b 0 j) := by
  refine (Ideal.multiReduction_add_single src _ reduces_S8x1x512_S8x1 (.inl rfl) rfl (ix2 b 0)).trans ?_
  exact Finset.sum_congr rfl fun k _ => congrArg src (lift_eq b k)

/-- The lane maximum of a `[8,1,512]` vector at `(b, 0)`, taken from `-∞`. -/
theorem reduce_max_apply (src : FVec Ideal S8x1x512 .f32) (b : Fin 8) :
    multiReduction (F := Ideal) .maximumf [2] S8x1 src 0xFF800000#32 reduces_S8x1x512_S8x1 (.inl rfl) rfl (ix2 b 0)
      = (Finset.univ : Finset (Fin 512)).fold max (⊥ : EReal) (fun j => src (ix3 b 0 j)) := by
  refine (Ideal.multiReduction_maximumf_single src _ reduces_S8x1x512_S8x1 (.inl rfl) rfl (ix2 b 0)).trans ?_
  have e : (src ∘ reduces_S8x1x512_S8x1.lift (ix2 b 0)) = fun j : Fin 512 => src (ix3 b 0 j) :=
    funext fun k => congrArg src (lift_eq b k)
  rw [e]
  exact congrArg (fun z => (Finset.univ : Finset (Fin 512)).fold max z fun j => src (ix3 b 0 j)) ofBits_neg_inf

/-! ## The two products: where each operand is read

The first product contracts the 1024 features of the query row against those of a key row; the second contracts the
512 keys of the weights against those of a key column. At output index `i` and contraction coordinate `q` the left
operand is read at `(i 0, i 1, q)`; the right operand at `(i 0, i 2, q)` in the first product and at `(i 0, q, i 2)` in
the second. -/

/-- Axis 0 of the index at which the first product reads its left operand. -/
theorem lhs_scores_0 (i : S8x1x512.Idx) (q : dot_S8x1x1024_S8x512x1024_S8x1x512_2_2_1_1_0_0.contr.Idx) :
    (dot_S8x1x1024_S8x512x1024_S8x1x512_2_2_1_1_0_0.lhsIdx i q 0).val = (i 0).val := by
  unfold DotDims.lhsIdx
  rw [dif_pos (show (0 : Fin S8x1x1024.rank) ∈ dot_S8x1x1024_S8x512x1024_S8x1x512_2_2_1_1_0_0.lhsBatch by decide)]
  rfl
/-- Axis 1 of the index at which the first product reads its left operand. -/
theorem lhs_scores_1 (i : S8x1x512.Idx) (q : dot_S8x1x1024_S8x512x1024_S8x1x512_2_2_1_1_0_0.contr.Idx) :
    (dot_S8x1x1024_S8x512x1024_S8x1x512_2_2_1_1_0_0.lhsIdx i q 1).val = (i 1).val := by
  unfold DotDims.lhsIdx
  rw [dif_neg (show ¬(1 : Fin S8x1x1024.rank) ∈ dot_S8x1x1024_S8x512x1024_S8x1x512_2_2_1_1_0_0.lhsBatch by decide), dif_pos (show (1 : Fin S8x1x1024.rank) ∈ dot_S8x1x1024_S8x512x1024_S8x1x512_2_2_1_1_0_0.lhsNonContracting by decide)]
  rfl
/-- Axis 2 of the index at which the first product reads its left operand. -/
theorem lhs_scores_2 (i : S8x1x512.Idx) (q : dot_S8x1x1024_S8x512x1024_S8x1x512_2_2_1_1_0_0.contr.Idx) :
    (dot_S8x1x1024_S8x512x1024_S8x1x512_2_2_1_1_0_0.lhsIdx i q 2).val = (q ⟨0, by decide⟩).val :=
  dot_S8x1x1024_S8x512x1024_S8x1x512_2_2_1_1_0_0.lhsIdx_val_of_single rfl i q
/-- Axis 0 of the index at which the first product reads its right operand. -/
theorem rhs_scores_0 (i : S8x1x512.Idx) (q : dot_S8x1x1024_S8x512x1024_S8x1x512_2_2_1_1_0_0.contr.Idx) :
    (dot_S8x1x1024_S8x512x1024_S8x1x512_2_2_1_1_0_0.rhsIdx i q 0).val = (i 0).val := by
  unfold DotDims.rhsIdx
  rw [dif_pos (show (0 : Fin S8x512x1024.rank) ∈ dot_S8x1x1024_S8x512x1024_S8x1x512_2_2_1_1_0_0.rhsBatch by decide)]
  rfl
/-- Axis 1 of the index at which the first product reads its right operand. -/
theorem rhs_scores_1 (i : S8x1x512.Idx) (q : dot_S8x1x1024_S8x512x1024_S8x1x512_2_2_1_1_0_0.contr.Idx) :
    (dot_S8x1x1024_S8x512x1024_S8x1x512_2_2_1_1_0_0.rhsIdx i q 1).val = (i 2).val := by
  unfold DotDims.rhsIdx
  rw [dif_neg (show ¬(1 : Fin S8x512x1024.rank) ∈ dot_S8x1x1024_S8x512x1024_S8x1x512_2_2_1_1_0_0.rhsBatch by decide), dif_pos (show (1 : Fin S8x512x1024.rank) ∈ dot_S8x1x1024_S8x512x1024_S8x1x512_2_2_1_1_0_0.rhsNonContracting by decide)]
  rfl
/-- Axis 2 of the index at which the first product reads its right operand. -/
theorem rhs_scores_2 (i : S8x1x512.Idx) (q : dot_S8x1x1024_S8x512x1024_S8x1x512_2_2_1_1_0_0.contr.Idx) :
    (dot_S8x1x1024_S8x512x1024_S8x1x512_2_2_1_1_0_0.rhsIdx i q 2).val = (q ⟨0, by decide⟩).val :=
  dot_S8x1x1024_S8x512x1024_S8x1x512_2_2_1_1_0_0.rhsIdx_val_of_single rfl i q
/-- Axis 0 of the index at which the second product reads its left operand. -/
theorem lhs_wsum_0 (i : S8x1x1024.Idx) (q : dot_S8x1x512_S8x512x1024_S8x1x1024_2_1_1_2_0_0.contr.Idx) :
    (dot_S8x1x512_S8x512x1024_S8x1x1024_2_1_1_2_0_0.lhsIdx i q 0).val = (i 0).val := by
  unfold DotDims.lhsIdx
  rw [dif_pos (show (0 : Fin S8x1x512.rank) ∈ dot_S8x1x512_S8x512x1024_S8x1x1024_2_1_1_2_0_0.lhsBatch by decide)]
  rfl
/-- Axis 1 of the index at which the second product reads its left operand. -/
theorem lhs_wsum_1 (i : S8x1x1024.Idx) (q : dot_S8x1x512_S8x512x1024_S8x1x1024_2_1_1_2_0_0.contr.Idx) :
    (dot_S8x1x512_S8x512x1024_S8x1x1024_2_1_1_2_0_0.lhsIdx i q 1).val = (i 1).val := by
  unfold DotDims.lhsIdx
  rw [dif_neg (show ¬(1 : Fin S8x1x512.rank) ∈ dot_S8x1x512_S8x512x1024_S8x1x1024_2_1_1_2_0_0.lhsBatch by decide), dif_pos (show (1 : Fin S8x1x512.rank) ∈ dot_S8x1x512_S8x512x1024_S8x1x1024_2_1_1_2_0_0.lhsNonContracting by decide)]
  rfl
/-- Axis 2 of the index at which the second product reads its left operand. -/
theorem lhs_wsum_2 (i : S8x1x1024.Idx) (q : dot_S8x1x512_S8x512x1024_S8x1x1024_2_1_1_2_0_0.contr.Idx) :
    (dot_S8x1x512_S8x512x1024_S8x1x1024_2_1_1_2_0_0.lhsIdx i q 2).val = (q ⟨0, by decide⟩).val :=
  dot_S8x1x512_S8x512x1024_S8x1x1024_2_1_1_2_0_0.lhsIdx_val_of_single rfl i q
/-- Axis 0 of the index at which the second product reads its right operand. -/
theorem rhs_wsum_0 (i : S8x1x1024.Idx) (q : dot_S8x1x512_S8x512x1024_S8x1x1024_2_1_1_2_0_0.contr.Idx) :
    (dot_S8x1x512_S8x512x1024_S8x1x1024_2_1_1_2_0_0.rhsIdx i q 0).val = (i 0).val := by
  unfold DotDims.rhsIdx
  rw [dif_pos (show (0 : Fin S8x512x1024.rank) ∈ dot_S8x1x512_S8x512x1024_S8x1x1024_2_1_1_2_0_0.rhsBatch by decide)]
  rfl
/-- Axis 1 of the index at which the second product reads its right operand. -/
theorem rhs_wsum_1 (i : S8x1x1024.Idx) (q : dot_S8x1x512_S8x512x1024_S8x1x1024_2_1_1_2_0_0.contr.Idx) :
    (dot_S8x1x512_S8x512x1024_S8x1x1024_2_1_1_2_0_0.rhsIdx i q 1).val = (q ⟨0, by decide⟩).val :=
  dot_S8x1x512_S8x512x1024_S8x1x1024_2_1_1_2_0_0.rhsIdx_val_of_single rfl i q
/-- Axis 2 of the index at which the second product reads its right operand. -/
theorem rhs_wsum_2 (i : S8x1x1024.Idx) (q : dot_S8x1x512_S8x512x1024_S8x1x1024_2_1_1_2_0_0.contr.Idx) :
    (dot_S8x1x512_S8x512x1024_S8x1x1024_2_1_1_2_0_0.rhsIdx i q 2).val = (i 2).val := by
  unfold DotDims.rhsIdx
  rw [dif_neg (show ¬(2 : Fin S8x512x1024.rank) ∈ dot_S8x1x512_S8x512x1024_S8x1x1024_2_1_1_2_0_0.rhsBatch by decide), dif_pos (show (2 : Fin S8x512x1024.rank) ∈ dot_S8x1x512_S8x512x1024_S8x1x1024_2_1_1_2_0_0.rhsNonContracting by decide)]
  rfl

/-- A score is the sum over the features of the products of the query row's and the key row's entries. -/
theorem scores_apply (l : FVec Ideal S8x1x1024 .f32) (r : FVec Ideal S8x512x1024 .f32) (b : Fin 8) (j : Fin 512) :
    matmul dot_S8x1x1024_S8x512x1024_S8x1x512_2_2_1_1_0_0 none l r (constant (F := Ideal) S8x1x512 .f32 0x00000000#32) (ix3 b 0 j)
      = ∑ e : Fin 1024, l (ix3 b 0 e) * r (ix3 b j e) := by
  refine (Ideal.matmul_constant_zero_apply dot_S8x1x1024_S8x512x1024_S8x1x512_2_2_1_1_0_0 none l r (ix3 b 0 j)).trans ?_
  rw [← Equiv.sum_comp (ValueIdx.contrEquiv1 dot_S8x1x1024_S8x512x1024_S8x1x512_2_2_1_1_0_0 1024 rfl rfl).symm]
  refine Finset.sum_congr rfl fun k _ => ?_
  have hk := ValueIdx.contrEquiv1_symm_val dot_S8x1x1024_S8x512x1024_S8x1x512_2_2_1_1_0_0 1024 rfl rfl k
  have el : dot_S8x1x1024_S8x512x1024_S8x1x512_2_2_1_1_0_0.lhsIdx (ix3 b 0 j) ((ValueIdx.contrEquiv1 dot_S8x1x1024_S8x512x1024_S8x1x512_2_2_1_1_0_0 1024 rfl rfl).symm k) = ix3 b 0 k :=
    funext fun a => Fin.ext (by
      match a with
      | ⟨0, _⟩ => exact lhs_scores_0 _ _
      | ⟨1, _⟩ => exact lhs_scores_1 _ _
      | ⟨2, _⟩ => exact (lhs_scores_2 _ _).trans hk)
  have er : dot_S8x1x1024_S8x512x1024_S8x1x512_2_2_1_1_0_0.rhsIdx (ix3 b 0 j) ((ValueIdx.contrEquiv1 dot_S8x1x1024_S8x512x1024_S8x1x512_2_2_1_1_0_0 1024 rfl rfl).symm k) = ix3 b j k :=
    funext fun a => Fin.ext (by
      match a with
      | ⟨0, _⟩ => exact rhs_scores_0 _ _
      | ⟨1, _⟩ => exact rhs_scores_1 _ _
      | ⟨2, _⟩ => exact (rhs_scores_2 _ _).trans hk)
  rw [el, er]

/-- Column `h` of the weighted sum is the sum over the keys of the products of the weights and the key column's entries. -/
theorem wsum_apply (l : FVec Ideal S8x1x512 .f32) (r : FVec Ideal S8x512x1024 .f32) (b : Fin 8) (h : Fin 1024) :
    matmul dot_S8x1x512_S8x512x1024_S8x1x1024_2_1_1_2_0_0 none l r (constant (F := Ideal) S8x1x1024 .f32 0x00000000#32) (ix3 b 0 h)
      = ∑ j : Fin 512, l (ix3 b 0 j) * r (ix3 b j h) := by
  refine (Ideal.matmul_constant_zero_apply dot_S8x1x512_S8x512x1024_S8x1x1024_2_1_1_2_0_0 none l r (ix3 b 0 h)).trans ?_
  rw [← Equiv.sum_comp (ValueIdx.contrEquiv1 dot_S8x1x512_S8x512x1024_S8x1x1024_2_1_1_2_0_0 512 rfl rfl).symm]
  refine Finset.sum_congr rfl fun k _ => ?_
  have hk := ValueIdx.contrEquiv1_symm_val dot_S8x1x512_S8x512x1024_S8x1x1024_2_1_1_2_0_0 512 rfl rfl k
  have el : dot_S8x1x512_S8x512x1024_S8x1x1024_2_1_1_2_0_0.lhsIdx (ix3 b 0 h) ((ValueIdx.contrEquiv1 dot_S8x1x512_S8x512x1024_S8x1x1024_2_1_1_2_0_0 512 rfl rfl).symm k) = ix3 b 0 k :=
    funext fun a => Fin.ext (by
      match a with
      | ⟨0, _⟩ => exact lhs_wsum_0 _ _
      | ⟨1, _⟩ => exact lhs_wsum_1 _ _
      | ⟨2, _⟩ => exact (lhs_wsum_2 _ _).trans hk)
  have er : dot_S8x1x512_S8x512x1024_S8x1x1024_2_1_1_2_0_0.rhsIdx (ix3 b 0 h) ((ValueIdx.contrEquiv1 dot_S8x1x512_S8x512x1024_S8x1x1024_2_1_1_2_0_0 512 rfl rfl).symm k) = ix3 b k h :=
    funext fun a => Fin.ext (by
      match a with
      | ⟨0, _⟩ => exact rhs_wsum_0 _ _
      | ⟨1, _⟩ => exact (rhs_wsum_1 _ _).trans hk
      | ⟨2, _⟩ => exact rhs_wsum_2 _ _)
  rw [el, er]

/-! ## The payloads -/

/-- The reset value of the running maximum is `-∞`. -/
theorem pay4_apply (y : S8x1x1.Idx) : k0_pay4 (F := Ideal) y = (⊥ : EReal) := by
  unfold k0_pay4
  refine (congrFun (shapeCast_self _ _) y).trans ?_
  exact ofBits_neg_inf

/-- The reset value of the running sum is `0`. -/
theorem pay5_apply (y : S8x1x1.Idx) : k0_pay5 (F := Ideal) y = (0 : EReal) := by
  unfold k0_pay5
  refine (congrFun (shapeCast_self _ _) y).trans ?_
  exact Ideal.ofBits_zero_f32

/-- The reset value of the running weighted sum is `0`. -/
theorem pay6_apply (y : S8x1x1024.Idx) : k0_pay6 (F := Ideal) y = (0 : EReal) := by
  unfold k0_pay6
  refine (congrFun (shapeCast_self _ _) y).trans ?_
  exact Ideal.ofBits_zero_f32

/-- Storing a block through a cast to its own shape stores the block. -/
theorem pay1_eq (v : FVec Ideal S8x1x1024 .f32) : k0_pay1 v = v := by
  unfold k0_pay1
  exact shapeCast_self v _

theorem pay2_eq (v : FVec Ideal S8x1x1 .f32) : k0_pay2 v = v := by
  unfold k0_pay2
  exact shapeCast_self v _

theorem pay7_eq : k0_pay7 x0 = x0 := by
  unfold k0_pay7
  exact shapeCast_self x0 _

/-- A score: the query row against a key row. -/
theorem pay8_apply (b : Fin 8) (j : Fin 512) :
    k0_pay8 x0 x1 (ix3 b 0 j) = ∑ e : Fin 1024, x0 (ix3 b 0 e) * x1 (ix3 b j e) := by
  unfold k0_pay8
  rw [pay7_eq]
  exact scores_apply x0 x1 b j

/-- The new maximum: the old one against the largest of the tile's scores (itself taken from `-∞`). -/
theorem pay9_apply (b : Fin 8) :
    k0_pay9 x0 x1 xs0 (ix3 b 0 0)
      = max (xs0 (ix3 b 0 0)) ((Finset.univ : Finset (Fin 512)).fold max (⊥ : EReal) (fun j => k0_pay8 x0 x1 (ix3 b 0 j))) := by
  unfold k0_pay9
  show max (xs0 (ix3 b 0 0)) (shapeCast S8x1x1 (multiReduction (F := Ideal) .maximumf [2] S8x1 (k0_pay8 x0 x1) 0xFF800000#32
    reduces_S8x1x512_S8x1 (.inl rfl) rfl) shapeCasts_S8x1_S8x1x1 (ix3 b 0 0)) = _
  rw [cast_keepdims_apply, reduce_max_apply]

/-- The rescaling factor. -/
theorem pay10_apply (b : Fin 8) :
    k0_pay10 x0 x1 xs0 (ix3 b 0 0) = Ideal.exp (xs0 (ix3 b 0 0) - k0_pay9 x0 x1 xs0 (ix3 b 0 0)) := by
  unfold k0_pay10
  rfl

/-- A key's weight. -/
theorem pay11_apply (b : Fin 8) (j : Fin 512) :
    k0_pay11 x0 x1 xs0 (ix3 b 0 j) = Ideal.exp (k0_pay8 x0 x1 (ix3 b 0 j) - k0_pay9 x0 x1 xs0 (ix3 b 0 0)) := by
  unfold k0_pay11
  show Ideal.exp (k0_pay8 x0 x1 (ix3 b 0 j)
    - broadcastTo S8x1x512 (k0_pay9 x0 x1 xs0) broadcasts_S8x1x1_S8x1x512 (ix3 b 0 j)) = _
  rw [bcast512_apply]

/-- The new sum. -/
theorem pay12_apply (b : Fin 8) :
    k0_pay12 x0 x1 xs0 xs1 (ix3 b 0 0)
      = k0_pay10 x0 x1 xs0 (ix3 b 0 0) * xs1 (ix3 b 0 0) + ∑ j : Fin 512, k0_pay11 x0 x1 xs0 (ix3 b 0 j) := by
  unfold k0_pay12
  refine (congrFun (shapeCast_self _ _) (ix3 b 0 0)).trans ?_
  show k0_pay10 x0 x1 xs0 (ix3 b 0 0) * xs1 (ix3 b 0 0)
    + shapeCast S8x1x1 (multiReduction (F := Ideal) .add [2] S8x1 (k0_pay11 x0 x1 xs0) 0x00000000#32
        reduces_S8x1x512_S8x1 (.inl rfl) rfl) shapeCasts_S8x1_S8x1x1 (ix3 b 0 0) = _
  rw [cast_keepdims_apply, reduce_add_apply]

/-- The new weighted sum, column `h`. -/
theorem pay13_apply (b : Fin 8) (h : Fin 1024) :
    k0_pay13 x0 x1 xs0 xs2 (ix3 b 0 h)
      = k0_pay10 x0 x1 xs0 (ix3 b 0 0) * xs2 (ix3 b 0 h) + ∑ j : Fin 512, k0_pay11 x0 x1 xs0 (ix3 b 0 j) * x1 (ix3 b j h) := by
  unfold k0_pay13
  show broadcastTo S8x1x1024 (k0_pay10 x0 x1 xs0) broadcasts_S8x1x1_S8x1x1024 (ix3 b 0 h) * xs2 (ix3 b 0 h)
    + matmul dot_S8x1x512_S8x512x1024_S8x1x1024_2_1_1_2_0_0 none (k0_pay11 x0 x1 xs0) x1 (constant (F := Ideal) S8x1x1024 .f32 0x00000000#32) (ix3 b 0 h) = _
  rw [bcast1024_apply, wsum_apply]

/-- The output row's first half is the query row. -/
theorem pay3_left (v4 : FVec Ideal S8x1x1024 .f32) (v38 : Vec Ideal S8x1x1024 .f32) (v39 : Vec Ideal S8x1x1 .f32)
    (b : Fin 8) (n : Fin 2048) (hn : n.val < 1024) :
    k0_pay3 v4 v38 v39 (ix3 b 0 n) = v4 (ix3 b 0 ⟨n.val, hn⟩) := by
  unfold k0_pay3
  refine concatenate_pair_apply_left (2 : Fin S8x1x2048.rank) v4 _ concatenates_S8x1x1024_S8x1x1024_S8x1x2048_d2
    (ix3 b 0 n) rfl (ix3 b 0 ⟨n.val, hn⟩) fun a => ?_
  match a with
  | ⟨0, _⟩ => rfl
  | ⟨1, _⟩ => rfl
  | ⟨2, _⟩ => rfl

/-- The output row's second half is the weighted sums over the sum. -/
theorem pay3_right (v4 : FVec Ideal S8x1x1024 .f32) (v38 : Vec Ideal S8x1x1024 .f32) (v39 : Vec Ideal S8x1x1 .f32)
    (b : Fin 8) (n : Fin 2048) (hn : ¬ n.val < 1024) :
    k0_pay3 v4 v38 v39 (ix3 b 0 n)
      = Ideal.div (v38 (ix3 b 0 ⟨n.val - 1024, by have := n.isLt; omega⟩)) (v39 (ix3 b 0 0)) := by
  unfold k0_pay3
  refine (concatenate_pair_apply_right (2 : Fin S8x1x2048.rank) v4 _ concatenates_S8x1x1024_S8x1x1024_S8x1x2048_d2
    (ix3 b 0 n) rfl rfl (ix3 b 0 ⟨n.val - 1024, by have := n.isLt; omega⟩) (fun a ha => ?_) ?_).trans ?_
  · match a with
    | ⟨0, _⟩ => rfl
    | ⟨1, _⟩ => rfl
    | ⟨2, _⟩ => exact (ha (Fin.ext rfl)).elim
  · show n.val - 1024 + 1024 = n.val
    omega
  · show Ideal.div (v38 (ix3 b 0 ⟨n.val - 1024, _⟩))
      (broadcastTo S8x1x1024 v39 broadcasts_S8x1x1_S8x1x1024 (ix3 b 0 ⟨n.val - 1024, _⟩)) = _
    rw [bcast1024_apply]

end Cert.Attn.Kernel

end
-- ==== Proof.OnlineSoftmax.lean ====
import Idealize.ShloMosaic.PureOps.Ideal
import Mathlib.Analysis.SpecialFunctions.Exp

/-!
# The rescaling recurrence of a softmax-weighted sum, and its closed form

A row of scores is cut into tiles `σ 0, σ 1, …`. A pass over the tiles keeps a running maximum `m`, a running
sum `l` of `exp (score - m)` and a running weighted sum `a` of `exp (score - m) * value`; when a new tile raises
the maximum from `m` to `m'`, the two sums are rescaled by `exp (m - m')` before the tile's own terms are added,
because `exp (m - m') * exp (x - m) = exp (x - m')`. After the last tile `a / l` is the softmax-weighted sum of
the values over the whole row, and it does not depend on how the row was cut.

Everything is first defined over the reals; the lemmas then say that the same steps carried out on the extended
reals, starting from the maximum `⊥` and the sums `0`, compute the coercions of the real quantities.
-/

noncomputable section

namespace Cert.OnlineSoftmax

open Idealize.ShloMosaic

variable {J : Type} [Fintype J] [Nonempty J]

/-- The largest entry of a finite nonempty family of reals. -/
def tileMax (f : J → ℝ) : ℝ := Finset.univ.sup' Finset.univ_nonempty f

/-- The running maximum after tiles `0 … n`. -/
def runMax (σ : ℕ → J → ℝ) : ℕ → ℝ
  | 0 => tileMax (σ 0)
  | n + 1 => max (runMax σ n) (tileMax (σ (n + 1)))

/-- The running sum of exponentials after tiles `0 … n`, relative to the running maximum at `n`. -/
def runSum (σ : ℕ → J → ℝ) (n : ℕ) : ℝ :=
  ∑ t ∈ Finset.range (n + 1), ∑ j, Real.exp (σ t j - runMax σ n)

/-- The running weighted sum after tiles `0 … n`, relative to the running maximum at `n`. -/
def runAcc (σ ν : ℕ → J → ℝ) (n : ℕ) : ℝ :=
  ∑ t ∈ Finset.range (n + 1), ∑ j, Real.exp (σ t j - runMax σ n) * ν t j

/-! ## Coercions of finite sums -/

theorem coe_sum {ι : Type} (s : Finset ι) (f : ι → ℝ) : (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

theorem coe_sum_mul {ι : Type} (s : Finset ι) (f g : ι → ℝ) :
    (∑ i ∈ s, (f i : EReal) * (g i : EReal)) = ((∑ i ∈ s, f i * g i : ℝ) : EReal) := by
  simp only [← EReal.coe_mul]
  exact coe_sum s _

/-! ## The maximum of a tile on the extended reals -/

theorem fold_max_coe (f : J → ℝ) :
    (Finset.univ : Finset J).fold max (⊥ : EReal) (fun j => (f j : EReal)) = (tileMax f : EReal) := by
  show (Finset.univ : Finset J).sup (fun j => (f j : EReal)) = _
  apply le_antisymm
  · exact Finset.sup_le fun j _ => EReal.coe_le_coe_iff.2 (Finset.le_sup' f (Finset.mem_univ j))
  · obtain ⟨j, _, hj⟩ := Finset.exists_mem_eq_sup' Finset.univ_nonempty f
    rw [tileMax, hj]
    exact Finset.le_sup (f := fun j => (f j : EReal)) (Finset.mem_univ j)

theorem le_tileMax (f : J → ℝ) (j : J) : f j ≤ tileMax f := by
  exact Finset.le_sup' f (Finset.mem_univ j)

/-! ## The first tile, from the maximum `⊥` and the sums `0` -/

theorem first_max (σ : ℕ → J → ℝ) :
    max (⊥ : EReal) ((Finset.univ : Finset J).fold max (⊥ : EReal) (fun j => (σ 0 j : EReal))) = (runMax σ 0 : EReal) := by
  rw [fold_max_coe, max_eq_right bot_le]
  rfl

theorem first_sum (σ : ℕ → J → ℝ) :
    Ideal.exp ((⊥ : EReal) - (runMax σ 0 : EReal)) * 0 + ∑ j, Ideal.exp ((σ 0 j : EReal) - (runMax σ 0 : EReal))
      = (runSum σ 0 : EReal) := by
  have h : runSum σ 0 = ∑ j, Real.exp (σ 0 j - runMax σ 0) := by
    unfold runSum
    rw [zero_add, Finset.sum_range_one]
  rw [h, mul_zero, zero_add]
  simp only [← EReal.coe_sub, Ideal.exp_coe]
  exact coe_sum _ _

theorem first_acc (σ ν : ℕ → J → ℝ) :
    Ideal.exp ((⊥ : EReal) - (runMax σ 0 : EReal)) * 0
        + ∑ j, Ideal.exp ((σ 0 j : EReal) - (runMax σ 0 : EReal)) * (ν 0 j : EReal)
      = (runAcc σ ν 0 : EReal) := by
  have h : runAcc σ ν 0 = ∑ j, Real.exp (σ 0 j - runMax σ 0) * ν 0 j := by
    unfold runAcc
    rw [zero_add, Finset.sum_range_one]
  rw [h, mul_zero, zero_add]
  simp only [← EReal.coe_sub, Ideal.exp_coe]
  exact coe_sum_mul _ _ _

/-! ## A later tile, from the running quantities of the tiles before it -/

/-- The coercion of the reals into the extended reals is monotone, so it commutes with the maximum of two reals. -/
theorem coe_max (a b : ℝ) : ((max a b : ℝ) : EReal) = max (a : EReal) (b : EReal) :=
  EReal.coe_strictMono.monotone.map_max

/-- Rescaling an exponential from the old maximum to the new one: `exp (m - m') * exp (x - m) = exp (x - m')`. -/
theorem exp_rescale (m m' x : ℝ) : Real.exp (m - m') * Real.exp (x - m) = Real.exp (x - m') := by
  rw [← Real.exp_add]
  congr 1
  ring

/-- Over the reals: the running sum rescaled to the new maximum, plus the new tile's exponentials, is the next running sum. -/
theorem next_sum_real (σ : ℕ → J → ℝ) (n : ℕ) :
    Real.exp (runMax σ n - runMax σ (n + 1)) * runSum σ n + ∑ j, Real.exp (σ (n + 1) j - runMax σ (n + 1))
      = runSum σ (n + 1) := by
  have h1 : runSum σ (n + 1) = (∑ t ∈ Finset.range (n + 1), ∑ j, Real.exp (σ t j - runMax σ (n + 1)))
      + ∑ j, Real.exp (σ (n + 1) j - runMax σ (n + 1)) := by
    unfold runSum
    rw [Finset.sum_range_succ]
  rw [h1]
  congr 1
  unfold runSum
  rw [Finset.mul_sum]
  refine Finset.sum_congr rfl fun t _ => ?_
  rw [Finset.mul_sum]
  refine Finset.sum_congr rfl fun j _ => ?_
  exact exp_rescale _ _ _

/-- Over the reals: the running weighted sum rescaled to the new maximum, plus the new tile's weighted exponentials, is the
    next running weighted sum. -/
theorem next_acc_real (σ ν : ℕ → J → ℝ) (n : ℕ) :
    Real.exp (runMax σ n - runMax σ (n + 1)) * runAcc σ ν n
        + ∑ j, Real.exp (σ (n + 1) j - runMax σ (n + 1)) * ν (n + 1) j
      = runAcc σ ν (n + 1) := by
  have h1 : runAcc σ ν (n + 1) = (∑ t ∈ Finset.range (n + 1), ∑ j, Real.exp (σ t j - runMax σ (n + 1)) * ν t j)
      + ∑ j, Real.exp (σ (n + 1) j - runMax σ (n + 1)) * ν (n + 1) j := by
    unfold runAcc
    rw [Finset.sum_range_succ]
  rw [h1]
  congr 1
  unfold runAcc
  rw [Finset.mul_sum]
  refine Finset.sum_congr rfl fun t _ => ?_
  rw [Finset.mul_sum]
  refine Finset.sum_congr rfl fun j _ => ?_
  rw [← mul_assoc, exp_rescale]

theorem next_max (σ : ℕ → J → ℝ) (n : ℕ) :
    max (runMax σ n : EReal) ((Finset.univ : Finset J).fold max (⊥ : EReal) (fun j => (σ (n + 1) j : EReal)))
      = (runMax σ (n + 1) : EReal) := by
  rw [fold_max_coe, ← coe_max]
  rfl

theorem next_sum (σ : ℕ → J → ℝ) (n : ℕ) :
    Ideal.exp ((runMax σ n : EReal) - (runMax σ (n + 1) : EReal)) * (runSum σ n : EReal)
        + ∑ j, Ideal.exp ((σ (n + 1) j : EReal) - (runMax σ (n + 1) : EReal))
      = (runSum σ (n + 1) : EReal) := by
  simp only [← EReal.coe_sub, Ideal.exp_coe]
  rw [coe_sum, ← EReal.coe_mul, ← EReal.coe_add, next_sum_real]

theorem next_acc (σ ν : ℕ → J → ℝ) (n : ℕ) :
    Ideal.exp ((runMax σ n : EReal) - (runMax σ (n + 1) : EReal)) * (runAcc σ ν n : EReal)
        + ∑ j, Ideal.exp ((σ (n + 1) j : EReal) - (runMax σ (n + 1) : EReal)) * (ν (n + 1) j : EReal)
      = (runAcc σ ν (n + 1) : EReal) := by
  simp only [← EReal.coe_sub, Ideal.exp_coe]
  rw [coe_sum_mul, ← EReal.coe_mul, ← EReal.coe_add, next_acc_real]

/-! ## A row of 2048 cut into four tiles of 512 -/

/-- Tile `n` (taken modulo 4) of a row of 2048: entries `512 * n … 512 * n + 511`. -/
def tiles (s : Fin 2048 → ℝ) : ℕ → Fin 512 → ℝ :=
  fun n j => s ⟨512 * (n % 4) + j.val, by have := j.isLt; omega⟩

/-- Every tile's maximum is at most the running maximum of any later stage. -/
theorem tileMax_le_runMax (σ : ℕ → J → ℝ) {t n : ℕ} (h : t ≤ n) : tileMax (σ t) ≤ runMax σ n := by
  induction n with
  | zero =>
    have h0 : t = 0 := by omega
    subst h0
    exact le_refl _
  | succ n ih =>
    rw [runMax]
    rcases Nat.lt_or_ge t (n + 1) with h' | h'
    · exact le_trans (ih (by omega)) (le_max_left _ _)
    · have h0 : t = n + 1 := by omega
      subst h0
      exact le_max_right _ _

/-- Entry `k = 512 * (k / 512) + k % 512` of the row lies in tile `k / 512`, so it is at most the last running maximum. -/
theorem le_runMax_tiles (s : Fin 2048 → ℝ) (k : Fin 2048) : s k ≤ runMax (tiles s) 3 := by
  have hk := k.isLt
  have h1 : s k = tiles s (k.val / 512) ⟨k.val % 512, Nat.mod_lt _ (by norm_num)⟩ := by
    unfold tiles
    congr 1
    apply Fin.ext
    show k.val = 512 * (k.val / 512 % 4) + k.val % 512
    omega
  rw [h1]
  exact le_trans (le_tileMax _ _) (tileMax_le_runMax _ (by omega))

/-- Summing tile by tile is summing over the whole row: `(t, j) ↦ 512 * t + j` is a bijection from `4 × 512` onto `2048`. -/
theorem sum_tiles (g : Fin 2048 → ℝ) : ∑ t ∈ Finset.range 4, ∑ j : Fin 512, tiles g t j = ∑ k, g k := by
  rw [Finset.sum_range fun t => ∑ j : Fin 512, tiles g t j]
  rw [← Fintype.sum_prod_type' (f := fun (t : Fin 4) (j : Fin 512) => tiles g t j)]
  refine Fintype.sum_equiv (finProdFinEquiv (m := 4) (n := 512)) _ _ ?_
  rintro ⟨t, j⟩
  have ht := t.isLt
  unfold tiles
  congr 1
  apply Fin.ext
  show 512 * (t.val % 4) + j.val = j.val + 512 * t.val
  omega

theorem runMax_tiles (s : Fin 2048 → ℝ) : runMax (tiles s) 3 = tileMax s := by
  apply le_antisymm
  · have ht : ∀ t, tileMax (tiles s t) ≤ tileMax s := fun t =>
      Finset.sup'_le _ _ fun j _ => le_tileMax s _
    exact max_le (max_le (max_le (ht 0) (ht 1)) (ht 2)) (ht 3)
  · exact Finset.sup'_le _ _ fun k _ => le_runMax_tiles s k

theorem runSum_tiles (s : Fin 2048 → ℝ) : runSum (tiles s) 3 = ∑ k, Real.exp (s k - tileMax s) := by
  unfold runSum
  rw [runMax_tiles]
  exact sum_tiles fun k => Real.exp (s k - tileMax s)

theorem runAcc_tiles (s v : Fin 2048 → ℝ) :
    runAcc (tiles s) (tiles v) 3 = ∑ k, Real.exp (s k - tileMax s) * v k := by
  unfold runAcc
  rw [runMax_tiles]
  exact sum_tiles fun k => Real.exp (s k - tileMax s) * v k

/-! ## The two quotients -/

theorem sum_exp_pos (s : J → ℝ) (M : ℝ) : 0 < ∑ k, Real.exp (s k - M) := by
  exact Finset.sum_pos (fun k _ => Real.exp_pos _) Finset.univ_nonempty

/-- The quotient of the two running sums, taken once at the end. -/
theorem div_coe_coe (A L : ℝ) (hL : L ≠ 0) : Ideal.div (A : EReal) (L : EReal) = ((A / L : ℝ) : EReal) := by
  rw [Ideal.div_coe hL, ← EReal.coe_mul, mul_one_div]

/-- The maximum of a whole row, taken from `⊥` twice (a reduction from `⊥`, then a maximum with `⊥`). -/
theorem bot_max_fold (f : J → ℝ) :
    max (⊥ : EReal) ((Finset.univ : Finset J).fold max (⊥ : EReal) (fun j => (f j : EReal))) = (tileMax f : EReal) := by
  rw [fold_max_coe]
  exact max_eq_right bot_le

/-- Normalising every weight first and summing afterwards gives the same quotient: each weight is divided by the sum
    of all weights (itself taken from `0`), multiplied by its value, and the products are summed. -/
theorem sum_div_mul (s v : J → ℝ) (M : ℝ) :
    ∑ k, Ideal.div (Ideal.exp ((s k : EReal) - (M : EReal))) (0 + ∑ k', Ideal.exp ((s k' : EReal) - (M : EReal))) * (v k : EReal)
      = (((∑ k, Real.exp (s k - M) * v k) / (∑ k, Real.exp (s k - M)) : ℝ) : EReal) := by
  have hL := sum_exp_pos s M
  simp only [← EReal.coe_sub, Ideal.exp_coe, zero_add]
  rw [coe_sum]
  simp only [div_coe_coe _ _ hL.ne', ← EReal.coe_mul]
  rw [coe_sum]
  congr 1
  rw [Finset.sum_div]
  refine Finset.sum_congr rfl fun k _ => ?_
  ring

end Cert.OnlineSoftmax

end
-- ==== Proof.Trip.lean ====
import proofs.«156267_j3332894622054_2_alg».proof.Proof.Payloads
import proofs.«156267_j3332894622054_2_alg».proof.Proof.OnlineSoftmax

/-!
# One trip of the recurrence, on real data

If a tile's scores and key columns are real numbers, then what a grid point leaves in the three carried buffers is the
running maximum, sum and weighted sum of the tiles so far: at a row's first tile from the reset values `-∞, 0, 0`,
at a later tile from the running quantities of the tiles before it. At the last tile the output row holds the query
and the quotient of the weighted sums by the sum.
-/

noncomputable section

namespace Cert.Attn.Kernel

open Idealize.ShloMosaic Idealize.ShloMosaic.ValueIdx Cert.OnlineSoftmax
open Cert.KernelIdeal Cert.KernelIdeal.Gen

variable (x0 : Vec Ideal S8x1x1024 .f32) (x1 : Vec Ideal S8x512x1024 .f32)
  (xs0 xs1 : Vec Ideal S8x1x1 .f32) (xs2 : Vec Ideal S8x1x1024 .f32)

/-! ## The first tile -/

theorem first_max_blk (σ : ℕ → Fin 512 → ℝ) (b : Fin 8)
    (hs : ∀ j, k0_pay8 x0 x1 (ix3 b 0 j) = ((σ 0 j : ℝ) : EReal)) :
    k0_pay9 x0 x1 (k0_pay4 (F := Ideal)) (ix3 b 0 0) = ((runMax σ 0 : ℝ) : EReal) := by
  rw [pay9_apply, pay4_apply]
  simp only [hs]
  exact first_max σ

theorem first_sum_blk (σ : ℕ → Fin 512 → ℝ) (b : Fin 8)
    (hs : ∀ j, k0_pay8 x0 x1 (ix3 b 0 j) = ((σ 0 j : ℝ) : EReal)) :
    k0_pay12 x0 x1 (k0_pay4 (F := Ideal)) (k0_pay5 (F := Ideal)) (ix3 b 0 0) = ((runSum σ 0 : ℝ) : EReal) := by
  rw [pay12_apply, pay10_apply, pay4_apply, pay5_apply]
  simp only [pay11_apply, hs, first_max_blk x0 x1 σ b hs]
  exact first_sum σ

theorem first_acc_blk (σ ν : ℕ → Fin 512 → ℝ) (b : Fin 8) (h : Fin 1024)
    (hs : ∀ j, k0_pay8 x0 x1 (ix3 b 0 j) = ((σ 0 j : ℝ) : EReal))
    (hv : ∀ j, x1 (ix3 b j h) = ((ν 0 j : ℝ) : EReal)) :
    k0_pay13 x0 x1 (k0_pay4 (F := Ideal)) (k0_pay6 (F := Ideal)) (ix3 b 0 h) = ((runAcc σ ν 0 : ℝ) : EReal) := by
  rw [pay13_apply, pay10_apply, pay4_apply, pay6_apply]
  simp only [pay11_apply, hs, hv, first_max_blk x0 x1 σ b hs]
  exact first_acc σ ν

/-! ## A later tile -/

theorem next_max_blk (σ : ℕ → Fin 512 → ℝ) (n : ℕ) (b : Fin 8)
    (hs : ∀ j, k0_pay8 x0 x1 (ix3 b 0 j) = ((σ (n + 1) j : ℝ) : EReal))
    (hm : xs0 (ix3 b 0 0) = ((runMax σ n : ℝ) : EReal)) :
    k0_pay9 x0 x1 xs0 (ix3 b 0 0) = ((runMax σ (n + 1) : ℝ) : EReal) := by
  rw [pay9_apply, hm]
  simp only [hs]
  exact next_max σ n

theorem next_sum_blk (σ : ℕ → Fin 512 → ℝ) (n : ℕ) (b : Fin 8)
    (hs : ∀ j, k0_pay8 x0 x1 (ix3 b 0 j) = ((σ (n + 1) j : ℝ) : EReal))
    (hm : xs0 (ix3 b 0 0) = ((runMax σ n : ℝ) : EReal))
    (hl : xs1 (ix3 b 0 0) = ((runSum σ n : ℝ) : EReal)) :
    k0_pay12 x0 x1 xs0 xs1 (ix3 b 0 0) = ((runSum σ (n + 1) : ℝ) : EReal) := by
  rw [pay12_apply, pay10_apply, hl]
  simp only [pay11_apply, hs, next_max_blk x0 x1 xs0 σ n b hs hm]
  rw [hm]
  exact next_sum σ n

theorem next_acc_blk (σ ν : ℕ → Fin 512 → ℝ) (n : ℕ) (b : Fin 8) (h : Fin 1024)
    (hs : ∀ j, k0_pay8 x0 x1 (ix3 b 0 j) = ((σ (n + 1) j : ℝ) : EReal))
    (hv : ∀ j, x1 (ix3 b j h) = ((ν (n + 1) j : ℝ) : EReal))
    (hm : xs0 (ix3 b 0 0) = ((runMax σ n : ℝ) : EReal))
    (ha : xs2 (ix3 b 0 h) = ((runAcc σ ν n : ℝ) : EReal)) :
    k0_pay13 x0 x1 xs0 xs2 (ix3 b 0 h) = ((runAcc σ ν (n + 1) : ℝ) : EReal) := by
  rw [pay13_apply, pay10_apply, ha]
  simp only [pay11_apply, hs, hv, next_max_blk x0 x1 xs0 σ n b hs hm]
  rw [hm]
  exact next_acc σ ν n

end Cert.Attn.Kernel

end
-- ==== Proof.Blocks.lean ====
import proofs.«156267_j3332894622054_2_alg».proof.Proof.Gen.KernelIdeal.Value
import Idealize.ShloMosaic.Lib.ValueIdx
import Idealize.ShloMosaic.Lib.Pipeline.Value
import Idealize.ShloMosaic.Lib.StableHlo.Run

/-!
# The blocks a grid point sees

Grid point `t` of the 8 × 4 grid works on batch rows `8 (t / 4) … 8 (t / 4) + 7` and on keys
`512 (t % 4) … 512 (t % 4) + 511`: row `b` of its query block is row `8 (t / 4) + b` of the query array, and entry
`(b, j, e)` of its key block is entry `(8 (t / 4) + b, 512 (t % 4) + j, e)` of the key array. The query array the
region finds is the second argument with a unit axis inserted in the middle.
-/

noncomputable section

namespace Cert.Attn.Kernel

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The block indices of the query window: the batch block, and zero on the other two axes. -/
theorem query_index : ∀ t : Fin cfg0.N,
    win0_0.index t (0 : Fin 3) = t.val / 4 ∧ win0_0.index t (1 : Fin 3) = 0 ∧ win0_0.index t (2 : Fin 3) = 0 :=
  (by decide +kernel : ∀ t : Fin grid0.N,
    win0_0.index t (0 : Fin 3) = t.val / 4 ∧ win0_0.index t (1 : Fin 3) = 0 ∧ win0_0.index t (2 : Fin 3) = 0)

/-- The block indices of the key window: the batch block, the key tile, and zero on the feature axis. -/
theorem key_index : ∀ t : Fin cfg0.N,
    win0_1.index t (0 : Fin 3) = t.val / 4 ∧ win0_1.index t (1 : Fin 3) = t.val % 4 ∧ win0_1.index t (2 : Fin 3) = 0 :=
  (by decide +kernel : ∀ t : Fin grid0.N,
    win0_1.index t (0 : Fin 3) = t.val / 4 ∧ win0_1.index t (1 : Fin 3) = t.val % 4 ∧ win0_1.index t (2 : Fin 3) = 0)

/-- The block indices of the output window: the batch block, and zero on the other two axes. -/
theorem out_index : ∀ t : Fin cfg0.N,
    win0_2.index t (0 : Fin 3) = t.val / 4 ∧ win0_2.index t (1 : Fin 3) = 0 ∧ win0_2.index t (2 : Fin 3) = 0 :=
  (by decide +kernel : ∀ t : Fin grid0.N,
    win0_2.index t (0 : Fin 3) = t.val / 4 ∧ win0_2.index t (1 : Fin 3) = 0 ∧ win0_2.index t (2 : Fin 3) = 0)

/-- The query array as the region finds it: the second argument with a unit middle axis. -/
theorem query_array (c : Dev nD) :
    (V m c main_v0 : S64x1x1024.Idx → EReal)
      = broadcastInDim S64x1x1024 ![0, 2] bcast_S64x1024_S64x1x1024_0_2 (m ((c : Thread nD τ).loc main_arg1)) := by
  dsimp only [Gen.V, Gen.hostOps0]; after_results

/-- … read at an index. -/
theorem query_array_apply (c : Dev nD) (i : S64x1x1024.Idx) :
    (V m c main_v0 : S64x1x1024.Idx → EReal) i = m ((c : Thread nD τ).loc main_arg1) (ix2 (i 0) (i 2)) := by
  rw [query_array]
  exact broadcastInDim_apply _ bcast_S64x1024_S64x1x1024_0_2 _ i (ix2 (i 0) (i 2)) (fun a => match a with
    | ⟨0, _⟩ => by show (i 0).val = if (64 : Nat) = 1 then 0 else (i 0).val; rw [if_neg (by decide)]
    | ⟨1, _⟩ => by show (i 2).val = if (1024 : Nat) = 1 then 0 else (i 2).val; rw [if_neg (by decide)])

/-- Row `b` of the query block at point `t` is row `8 (t / 4) + b` of the second argument. -/
theorem query_blk (c : Dev nD) (t : Fin cfg0.N) (b : Fin 8) (e : Fin 1024) (β : Fin 64)
    (hβ : β.val = 8 * (t.val / 4) + b.val) :
    (iblk m c 0 t : Vec Ideal S8x1x1024 .f32) (ix3 b 0 e) = m ((c : Thread nD τ).loc main_arg1) (ix2 β e) := by
  obtain ⟨i0, i1, i2⟩ := query_index t
  unfold iblk
  rw [View.read_apply]
  show (V m c main_v0 : S64x1x1024.Idx → EReal) _ = _
  rw [query_array_apply]
  refine congrArg _ (funext fun a => Fin.ext ?_)
  match a with
  | ⟨0, _⟩ => show win0_0.index t 0 * 8 + 1 * b.val = β.val; rw [i0, hβ]; omega
  | ⟨1, _⟩ => show win0_0.index t 2 * 1024 + 1 * e.val = e.val; rw [i2]; omega

/-- Entry `(b, j, e)` of the key block at point `t` is entry `(8 (t / 4) + b, 512 (t % 4) + j, e)` of the first argument. -/
theorem key_blk (c : Dev nD) (t : Fin cfg0.N) (b : Fin 8) (j : Fin 512) (e : Fin 1024) (β : Fin 64) (k : Fin 2048)
    (hβ : β.val = 8 * (t.val / 4) + b.val) (hk : k.val = 512 * (t.val % 4) + j.val) :
    (iblk m c 1 t : Vec Ideal S8x512x1024 .f32) (ix3 b j e) = m ((c : Thread nD τ).loc main_arg0) (ix3 β k e) := by
  obtain ⟨i0, i1, i2⟩ := key_index t
  unfold iblk
  rw [View.read_apply]
  show V m c main_arg0 _ = _
  rw [V_main_arg0]
  refine congrArg _ (funext fun a => Fin.ext ?_)
  match a with
  | ⟨0, _⟩ => show win0_1.index t 0 * 8 + 1 * b.val = β.val; rw [i0, hβ]; omega
  | ⟨1, _⟩ => show win0_1.index t 1 * 512 + 1 * j.val = k.val; rw [i1, hk]; omega
  | ⟨2, _⟩ => show win0_1.index t 2 * 1024 + 1 * e.val = e.val; rw [i2]; omega

end Cert.Attn.Kernel

end
-- ==== Proof.Spec.lean ====
import Idealize.ShloMosaic.Lib.ValueIdx
import proofs.«156267_j3332894622054_2_alg».proof.Proof.OnlineSoftmax

/-!
# What both programs compute

For a batch row `β` the query `d β` is scored against each of the 2048 keys `x β k` by a dot product over the 1024
features; the scores are turned into softmax weights along the keys; the context is the weighted sum of the same rows
`x β k` used as values; and the result row is the query followed by the context. The softmax is written with the
row's maximum subtracted, `exp (s k - M) / ∑ exp (s k' - M)`, and the context with the division taken once, outside
the sum.
-/

noncomputable section

namespace Cert.Attn

open Idealize.ShloMosaic Idealize.ShloMosaic.ValueIdx Cert.OnlineSoftmax

/-- The score of key `k` against the query of batch row `β`. -/
def score (x : Fin 64 → Fin 2048 → Fin 1024 → ℝ) (d : Fin 64 → Fin 1024 → ℝ) (β : Fin 64) (k : Fin 2048) : ℝ :=
  ∑ e, d β e * x β k e

/-- The softmax-weighted sum of column `h` of the keys of batch row `β`. -/
def context (x : Fin 64 → Fin 2048 → Fin 1024 → ℝ) (d : Fin 64 → Fin 1024 → ℝ) (β : Fin 64) (h : Fin 1024) : ℝ :=
  (∑ k, Real.exp (score x d β k - tileMax (score x d β)) * x β k h)
    / (∑ k, Real.exp (score x d β k - tileMax (score x d β)))

/-- The result array: along the last axis the query's 1024 entries, then the context's 1024 entries. -/
def result (x : Fin 64 → Fin 2048 → Fin 1024 → ℝ) (d : Fin 64 → Fin 1024 → ℝ) :
    (⟨3, ![64, 1, 2048]⟩ : Shape).Idx → EReal := fun i =>
  have h2 : (i 2).val < 2048 := (i 2).isLt
  if h : (i 2).val < 1024 then ((d (i 0) ⟨(i 2).val, h⟩ : ℝ) : EReal)
  else ((context x d (i 0) ⟨(i 2).val - 1024, by omega⟩ : ℝ) : EReal)

end Cert.Attn

end
-- ==== Proof.Invariant.lean ====
import proofs.«156267_j3332894622054_2_alg».proof.Proof.Pieces
import proofs.«156267_j3332894622054_2_alg».proof.Proof.Trip
import proofs.«156267_j3332894622054_2_alg».proof.Proof.Blocks
import proofs.«156267_j3332894622054_2_alg».proof.Proof.Spec

/-!
# The carried buffers hold the running quantities

After grid point `t`, row `b` of the three carried buffers holds the running maximum, the running sum and the
running weighted sums of batch row `8 (t / 4) + b` over its key tiles `0 … t % 4`: at the first tile of a row by
the reset, at every later tile from what the point before left (same batch rows, one tile fewer).
-/

noncomputable section

namespace Cert.Attn.Kernel

open Idealize.ShloMosaic Idealize.ShloMosaic.TcCoe Idealize.ShloMosaic.ValueIdx Idealize.SL.Sem
open Cert.KernelIdeal Cert.KernelIdeal.Gen Cert.OnlineSoftmax Cert.Attn

variable (m : (ℓ : Loc nD τ sig) → Buf (Elt Ideal) ℓ)
  (x : Fin 64 → Fin 2048 → Fin 1024 → ℝ) (d : Fin 64 → Fin 1024 → ℝ)

theorem N32 : cfg0.N = 32 := N_0

/-- The two argument arrays are the coercions of the real arrays `x` and `d`. -/
def RealArgs (c : Dev nD) : Prop :=
  (∀ a b e, m ((c : Thread nD τ).loc main_arg0) (ix3 a b e) = ((x a b e : ℝ) : EReal))
  ∧ (∀ a e, m ((c : Thread nD τ).loc main_arg1) (ix2 a e) = ((d a e : ℝ) : EReal))

/-- The batch row that row `b` of the blocks at grid point `n` belongs to. -/
def row (n : ℕ) (hn : n < cfg0.N) (b : Fin 8) : Fin 64 :=
  ⟨8 * (n / 4) + b.val, by have := N32; have := b.isLt; omega⟩

/-- Tiles are counted modulo 4. -/
theorem tiles_mod (s : Fin 2048 → ℝ) (n : ℕ) : tiles s (n % 4) = tiles s n := by
  funext j
  unfold tiles
  exact congrArg s (Fin.ext (by simp [Nat.mod_mod]))

/-- The tile's scores at point `t` are real: the dot products of the real query row and key rows. -/
theorem score_blk (c : Dev nD) (hR : RealArgs m x d c) (t : Fin cfg0.N) (b : Fin 8) (j : Fin 512) :
    k0_pay8 (iblk m c 0 t) (iblk m c 1 t) (ix3 b 0 j)
      = ((tiles (score x d (row t.val t.isLt b)) t.val j : ℝ) : EReal) := by
  have hq : ∀ e : Fin 1024, (iblk m c 0 t : Vec Ideal S8x1x1024 .f32) (ix3 b 0 e) = ((d (row t.val t.isLt b) e : ℝ) : EReal) :=
    fun e => (query_blk m c t b e (row t.val t.isLt b) rfl).trans (hR.2 _ _)
  have hk : ∀ e : Fin 1024, (iblk m c 1 t : Vec Ideal S8x512x1024 .f32) (ix3 b j e)
      = ((x (row t.val t.isLt b) ⟨512 * (t.val % 4) + j.val, by have := j.isLt; omega⟩ e : ℝ) : EReal) :=
    fun e => (key_blk m c t b j e (row t.val t.isLt b) ⟨512 * (t.val % 4) + j.val, by have := j.isLt; omega⟩ rfl rfl).trans (hR.1 _ _ _)
  refine (pay8_apply _ _ b j).trans ?_
  refine (Finset.sum_congr rfl fun e _ => congrArg₂ (fun u v : EReal => u * v) (hq e) (hk e)).trans ?_
  exact coe_sum_mul Finset.univ _ _

/-- The tile's key columns at point `t` are real. -/
theorem value_blk (c : Dev nD) (hR : RealArgs m x d c) (t : Fin cfg0.N) (b : Fin 8) (j : Fin 512) (h : Fin 1024) :
    (iblk m c 1 t : Vec Ideal S8x512x1024 .f32) (ix3 b j h)
      = ((tiles (fun k => x (row t.val t.isLt b) k h) t.val j : ℝ) : EReal) :=
  (key_blk m c t b j h (row t.val t.isLt b) ⟨512 * (t.val % 4) + j.val, by have := j.isLt; omega⟩ rfl rfl).trans (hR.1 _ _ _)

/-- What the carried buffers hold after grid point `n`: the running quantities of its batch rows over tiles `0 … n % 4`. -/
def Inv (c : Dev nD) (n : ℕ) (hn : n < cfg0.N) : Prop := ∀ b : Fin 8,
  (outsAt0 m c n hn).2.1 (ix3 b 0 0) = ((runMax (tiles (score x d (row n hn b))) (n % 4) : ℝ) : EReal)
  ∧ (outsAt0 m c n hn).2.2.1 (ix3 b 0 0) = ((runSum (tiles (score x d (row n hn b))) (n % 4) : ℝ) : EReal)
  ∧ ∀ h : Fin 1024, (outsAt0 m c n hn).2.2.2 (ix3 b 0 h)
      = ((runAcc (tiles (score x d (row n hn b))) (tiles (fun k => x (row n hn b) k h)) (n % 4) : ℝ) : EReal)

/-! ## The two steps over plain blocks -/

section Abstract

variable (X0 : Vec Ideal S8x1x1024 .f32) (X1 : Vec Ideal S8x512x1024 .f32)
  (o p : Vec Ideal S8x1x2048 .f32 × Vec Ideal S8x1x1 .f32 × Vec Ideal S8x1x1 .f32 × Vec Ideal S8x1x1024 .f32)
  (σ : ℕ → Fin 512 → ℝ) (ν : Fin 1024 → ℕ → Fin 512 → ℝ) (b : Fin 8)

/-- First tile: from the reset values the carried buffers end at the first tile's quantities. -/
theorem first_step
    (eM : o.2.1 = k0_pay2 (k0_pay9 X0 X1 (k0_pay4 (F := Ideal))))
    (eL : o.2.2.1 = k0_pay12 X0 X1 (k0_pay4 (F := Ideal)) (k0_pay5 (F := Ideal)))
    (eA : o.2.2.2 = k0_pay1 (k0_pay13 X0 X1 (k0_pay4 (F := Ideal)) (k0_pay6 (F := Ideal))))
    (hs : ∀ j, k0_pay8 X0 X1 (ix3 b 0 j) = ((σ 0 j : ℝ) : EReal))
    (hv : ∀ (h : Fin 1024) j, X1 (ix3 b j h) = ((ν h 0 j : ℝ) : EReal)) :
    o.2.1 (ix3 b 0 0) = ((runMax σ 0 : ℝ) : EReal) ∧ o.2.2.1 (ix3 b 0 0) = ((runSum σ 0 : ℝ) : EReal)
      ∧ ∀ h : Fin 1024, o.2.2.2 (ix3 b 0 h) = ((runAcc σ (ν h) 0 : ℝ) : EReal) := by
  rw [eM, eL, eA, pay2_eq, pay1_eq]
  exact ⟨first_max_blk X0 X1 σ b hs, first_sum_blk X0 X1 σ b hs, fun h => first_acc_blk X0 X1 σ (ν h) b h hs (hv h)⟩

/-- A later tile: from the running quantities the point before left, one tile further. -/
theorem next_step (n : ℕ)
    (eM : o.2.1 = k0_pay2 (k0_pay9 X0 X1 p.2.1))
    (eL : o.2.2.1 = k0_pay12 X0 X1 p.2.1 p.2.2.1)
    (eA : o.2.2.2 = k0_pay1 (k0_pay13 X0 X1 p.2.1 p.2.2.2))
    (hs : ∀ j, k0_pay8 X0 X1 (ix3 b 0 j) = ((σ (n + 1) j : ℝ) : EReal))
    (hv : ∀ (h : Fin 1024) j, X1 (ix3 b j h) = ((ν h (n + 1) j : ℝ) : EReal))
    (ihM : p.2.1 (ix3 b 0 0) = ((runMax σ n : ℝ) : EReal))
    (ihL : p.2.2.1 (ix3 b 0 0) = ((runSum σ n : ℝ) : EReal))
    (ihA : ∀ h : Fin 1024, p.2.2.2 (ix3 b 0 h) = ((runAcc σ (ν h) n : ℝ) : EReal)) :
    o.2.1 (ix3 b 0 0) = ((runMax σ (n + 1) : ℝ) : EReal) ∧ o.2.2.1 (ix3 b 0 0) = ((runSum σ (n + 1) : ℝ) : EReal)
      ∧ ∀ h : Fin 1024, o.2.2.2 (ix3 b 0 h) = ((runAcc σ (ν h) (n + 1) : ℝ) : EReal) := by
  rw [eM, eL, eA, pay2_eq, pay1_eq]
  exact ⟨next_max_blk X0 X1 p.2.1 σ n b hs ihM, next_sum_blk X0 X1 p.2.1 p.2.2.1 σ n b hs ihM ihL,
    fun h => next_acc_blk X0 X1 p.2.1 p.2.2.2 σ (ν h) n b h hs (hv h) ihM (ihA h)⟩

end Abstract

/-! ## What a point leaves, case by case, as payload terms -/

/-- At a row's first tile. -/
theorem outs_A (c : Dev nD) (t : Fin cfg0.N) (h0 : t.val % 4 = 0) :
    (outsAt0 m c t.val t.isLt).2.1 = k0_pay2 (k0_pay9 (iblk m c 0 t) (iblk m c 1 t) (k0_pay4 (F := Ideal)))
    ∧ (outsAt0 m c t.val t.isLt).2.2.1 = k0_pay12 (iblk m c 0 t) (iblk m c 1 t) (k0_pay4 (F := Ideal)) (k0_pay5 (F := Ideal))
    ∧ (outsAt0 m c t.val t.isLt).2.2.2 = k0_pay1 (k0_pay13 (iblk m c 0 t) (iblk m c 1 t) (k0_pay4 (F := Ideal)) (k0_pay6 (F := Ideal))) := by
  have h1 : ¬ t.val % 4 = 3 := by omega
  rw [outsAt0_A m c t h0 h1]
  dsimp only
  exact ⟨max_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    sum_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    acc_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h))⟩

/-- At a later tile, over what the point before left. -/
theorem outs_BC (c : Dev nD) (t : Fin cfg0.N) (h0 : ¬ t.val % 4 = 0) :
    (outsAt0 m c t.val t.isLt).2.1 = k0_pay2 (k0_pay9 (iblk m c 0 t) (iblk m c 1 t) (outsAt0 m c (t.val - 1) (Nat.lt_of_le_of_lt (Nat.sub_le _ _) t.isLt)).2.1)
    ∧ (outsAt0 m c t.val t.isLt).2.2.1 = k0_pay12 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = k0_pay1 (k0_pay13 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) := by
  by_cases h1 : t.val % 4 = 3
  · rw [outsAt0_C m c t h0 h1]
    dsimp only
    exact ⟨max_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
      sum_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
      acc_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)⟩
  · rw [outsAt0_B m c t h0 h1]
    dsimp only
    exact ⟨max_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
      sum_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
      acc_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))⟩

/-! ## The invariant, point by point -/

/-- At a row's first tile the carried buffers hold the first tile's quantities, whatever they held before. -/
theorem step_A (c : Dev nD) (hR : RealArgs m x d c) (t : Fin cfg0.N) (h0 : t.val % 4 = 0) : Inv m x d c t.val t.isLt := by
  intro b
  have hs : ∀ j, k0_pay8 (iblk m c 0 t) (iblk m c 1 t) (ix3 b 0 j) = (((tiles (score x d (row t.val t.isLt b))) 0 j : ℝ) : EReal) := fun j => by
    rw [score_blk m x d c hR t b j, ← tiles_mod _ t.val, h0]
  have hv : ∀ (h : Fin 1024) j, (iblk m c 1 t : Vec Ideal S8x512x1024 .f32) (ix3 b j h) = (((fun h => tiles (fun k => x (row t.val t.isLt b) k h)) h 0 j : ℝ) : EReal) := fun h j => by
    rw [value_blk m x d c hR t b j h, ← tiles_mod _ t.val, h0]
  obtain ⟨eM, eL, eA⟩ := outs_A m c t h0
  have r := first_step (iblk m c 0 t) (iblk m c 1 t) (outsAt0 m c t.val t.isLt) (tiles (score x d (row t.val t.isLt b))) (fun h => tiles (fun k => x (row t.val t.isLt b) k h)) b eM eL eA hs hv
  rw [h0]
  exact r

/-- At a later tile the carried buffers hold the running quantities one tile further than the point before left. -/
theorem step_BC (c : Dev nD) (hR : RealArgs m x d c) (t : Fin cfg0.N) (h0 : ¬ t.val % 4 = 0)
    (ih : Inv m x d c (t.val - 1) (Nat.lt_of_le_of_lt (Nat.sub_le _ _) t.isLt)) : Inv m x d c t.val t.isLt := by
  intro b
  obtain ⟨ihM, ihL, ihA⟩ := ih b
  have hrow : row (t.val - 1) (Nat.lt_of_le_of_lt (Nat.sub_le _ _) t.isLt) b = row t.val t.isLt b :=
    Fin.ext (by show 8 * ((t.val - 1) / 4) + b.val = 8 * (t.val / 4) + b.val; omega)
  rw [hrow] at ihM ihL
  simp only [hrow] at ihA
  have en : t.val % 4 = (t.val - 1) % 4 + 1 := by omega
  have hs : ∀ j, k0_pay8 (iblk m c 0 t) (iblk m c 1 t) (ix3 b 0 j) = (((tiles (score x d (row t.val t.isLt b))) ((t.val - 1) % 4 + 1) j : ℝ) : EReal) := fun j => by
    rw [score_blk m x d c hR t b j, ← tiles_mod _ t.val, en]
  have hv : ∀ (h : Fin 1024) j, (iblk m c 1 t : Vec Ideal S8x512x1024 .f32) (ix3 b j h)
      = (((fun h => tiles (fun k => x (row t.val t.isLt b) k h)) h ((t.val - 1) % 4 + 1) j : ℝ) : EReal) := fun h j => by
    rw [value_blk m x d c hR t b j h, ← tiles_mod _ t.val, en]
  obtain ⟨eM, eL, eA⟩ := outs_BC m c t h0
  have r := next_step (iblk m c 0 t) (iblk m c 1 t) (outsAt0 m c t.val t.isLt) (outsAt0 m c (t.val - 1) (Nat.lt_of_le_of_lt (Nat.sub_le _ _) t.isLt)) (tiles (score x d (row t.val t.isLt b))) (fun h => tiles (fun k => x (row t.val t.isLt b) k h)) b ((t.val - 1) % 4) eM eL eA hs hv ihM ihL ihA
  rw [en]
  exact r

/-- The carried buffers hold the running quantities after every grid point. -/
theorem inv (c : Dev nD) (hR : RealArgs m x d c) : ∀ (n : ℕ) (hn : n < cfg0.N), Inv m x d c n hn
  | 0, hn => step_A m x d c hR ⟨0, hn⟩ rfl
  | n + 1, hn => by
    by_cases h0 : (n + 1) % 4 = 0
    · exact step_A m x d c hR ⟨n + 1, hn⟩ h0
    · exact step_BC m x d c hR ⟨n + 1, hn⟩ h0 (inv c hR n (Nat.lt_of_succ_lt hn))

end Cert.Attn.Kernel

end
-- ==== Proof.Cover.lean ====
import proofs.«156267_j3332894622054_2_alg».proof.Proof.Blocks

/-!
# The write-backs cover the output array

The output block of batch block `q` is written back once, at the row's last key tile, grid point `4 q + 3`; it holds
output rows `8 q … 8 q + 7` whole. So every entry of the output array lies in the block of exactly such a point:
entry `(r, 0, n)` in the block of point `4 (r / 8) + 3`.
-/

noncomputable section

namespace Cert.Attn.Kernel

open Idealize.ShloMosaic Idealize.ShloMosaic.TcCoe Idealize.ShloMosaic.ValueIdx Idealize.SL.Sem
open Cert.KernelIdeal Cert.KernelIdeal.Gen

/-- An entry of the output array is in point `t`'s block iff each coordinate is in the block's range on its axis. -/
theorem mem_out_blk (t : Fin cfg0.N) (i : S64x1x2048.Idx) :
    i ∈ ((cfg0.win 2).blk t).view.set ↔ ∀ a : Fin 3,
      win0_2.index t a * S8x1x2048.size a ≤ (i a).val ∧ (i a).val < win0_2.index t a * S8x1x2048.size a + S8x1x2048.size a := by
  show i ∈ ((View.whole main_v1).slice (win0_2.rect t)).set ↔ _
  rw [View.set_slice_whole, Rect.mem_set_unit]
  exact Iff.rfl

/-- Every entry of the output array is in the block some point writes back. -/
theorem out_cover (i : S64x1x2048.Idx) :
    ∃ t : Fin cfg0.N, (cfg0.win 2).flush t = true ∧ i ∈ ((cfg0.win 2).blk t).view.set := by
  have hN : cfg0.N = 32 := N_0
  have h0 : (i 0).val < 64 := (i 0).isLt
  have h1 : (i 1).val < 1 := (i 1).isLt
  have h2 : (i 2).val < 2048 := (i 2).isLt
  let t : Fin cfg0.N := ⟨4 * ((i 0).val / 8) + 3, by omega⟩
  have ht : t.val = 4 * ((i 0).val / 8) + 3 := rfl
  obtain ⟨q0, q1, q2⟩ := out_index t
  refine ⟨t, (flush0_2 t).mpr (by omega), ?_⟩
  rw [mem_out_blk]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 2048 ≤ (i 2).val ∧ (i 2).val < win0_2.index t (2 : Fin 3) * 2048 + 2048
    omega

end Cert.Attn.Kernel

end
-- ==== Proof.Final.lean ====
import proofs.«156267_j3332894622054_2_alg».proof.Proof.Invariant
import proofs.«156267_j3332894622054_2_alg».proof.Proof.Cover

/-!
# The output array is the specification's result

At a row's last key tile the output block's row `b` is written: first the query row, then, column by column, the
running weighted sum divided by the running sum. By then both sums run over all four tiles, that is over the whole
key row, so the quotient is the softmax-weighted sum of the specification. The write-backs cover the output array, so
the array ends at the specification's result.
-/

noncomputable section

namespace Cert.Attn.Kernel

open Idealize.ShloMosaic Idealize.ShloMosaic.TcCoe Idealize.ShloMosaic.ValueIdx Idealize.SL.Sem
open Idealize.ShloMosaic.Pipeline (Dat)
open Cert.KernelIdeal Cert.KernelIdeal.Gen Cert.OnlineSoftmax Cert.Attn

/-! ## The output row over plain blocks -/

/-- The output row: the query's entries, then the weighted sums over the sum. -/
theorem out_row (X0 : Vec Ideal S8x1x1024 .f32) (X1 : Vec Ideal S8x512x1024 .f32)
    (o p : Vec Ideal S8x1x2048 .f32 × Vec Ideal S8x1x1 .f32 × Vec Ideal S8x1x1 .f32 × Vec Ideal S8x1x1024 .f32)
    (b : Fin 8) (n : Fin 2048) (q : Fin 1024 → ℝ) (L : ℝ) (A : Fin 1024 → ℝ) (hL : L ≠ 0)
    (eO : o.1 = k0_pay3 (k0_pay7 X0) (k0_pay1 (k0_pay13 X0 X1 p.2.1 p.2.2.2)) (k0_pay12 X0 X1 p.2.1 p.2.2.1))
    (eL : o.2.2.1 = k0_pay12 X0 X1 p.2.1 p.2.2.1)
    (eA : o.2.2.2 = k0_pay1 (k0_pay13 X0 X1 p.2.1 p.2.2.2))
    (hq : ∀ e, X0 (ix3 b 0 e) = ((q e : ℝ) : EReal))
    (hl : o.2.2.1 (ix3 b 0 0) = ((L : ℝ) : EReal))
    (ha : ∀ h : Fin 1024, o.2.2.2 (ix3 b 0 h) = ((A h : ℝ) : EReal)) :
    o.1 (ix3 b 0 n) = if h : n.val < 1024 then ((q ⟨n.val, h⟩ : ℝ) : EReal)
      else ((A ⟨n.val - 1024, by have := n.isLt; omega⟩ / L : ℝ) : EReal) := by
  rw [eO]
  split_ifs with h
  · rw [pay3_left _ _ _ b n h, pay7_eq]
    exact hq _
  · rw [pay3_right _ _ _ b n h, ← eA, ← eL, hl, ha]
    exact div_coe_coe _ _ hL

variable (m : (ℓ : Loc nD τ sig) → Buf (Elt Ideal) ℓ) (ρ : Dev nD → PrngReg)
  (x : Fin 64 → Fin 2048 → Fin 1024 → ℝ) (d : Fin 64 → Fin 1024 → ℝ)

/-- What the last tile leaves in the output block, as a payload term. -/
theorem outs_C_out (c : Dev nD) (t : Fin cfg0.N) (h0 : ¬ t.val % 4 = 0) (h1 : t.val % 4 = 3) :
    (outsAt0 m c t.val t.isLt).1 = k0_pay3 (k0_pay7 (iblk m c 0 t)) (k0_pay1 (k0_pay13 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2))
      (k0_pay12 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1) := by
  rw [outsAt0_C m c t h0 h1]
  dsimp only
  exact out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

/-- Row `b` of the output block at a row's last tile is row `8 (t / 4) + b` of the specification's result. -/
theorem out_blk (c : Dev nD) (hR : RealArgs m x d c) (t : Fin cfg0.N) (h3 : t.val % 4 = 3) (b : Fin 8) (n : Fin 2048) :
    (outsAt0 m c t.val t.isLt).1 (ix3 b 0 n) = result x d (ix3 (row t.val t.isLt b) 0 n) := by
  have h0 : ¬ t.val % 4 = 0 := by omega
  obtain ⟨iM, iL, iA⟩ := inv m x d c hR t.val t.isLt b
  rw [h3] at iM iL
  simp only [h3] at iA
  rw [runSum_tiles] at iL
  simp only [runAcc_tiles] at iA
  obtain ⟨eM, eL, eA⟩ := outs_BC m c t h0
  have hq : ∀ e : Fin 1024, (iblk m c 0 t : Vec Ideal S8x1x1024 .f32) (ix3 b 0 e) = ((d (row t.val t.isLt b) e : ℝ) : EReal) :=
    fun e => (query_blk m c t b e (row t.val t.isLt b) rfl).trans (hR.2 _ _)
  have r := out_row (iblk m c 0 t) (iblk m c 1 t) (outsAt0 m c t.val t.isLt) (outsAt0 m c (t.val - 1) (Nat.lt_of_le_of_lt (Nat.sub_le _ _) t.isLt)) b n (d (row t.val t.isLt b))
    (∑ k, Real.exp (score x d (row t.val t.isLt b) k - tileMax (score x d (row t.val t.isLt b))))
    (fun h => ∑ k, Real.exp (score x d (row t.val t.isLt b) k - tileMax (score x d (row t.val t.isLt b))) * x (row t.val t.isLt b) k h)
    (sum_exp_pos _ _).ne' (outs_C_out m c t h0 h3) eL eA hq iL iA
  rw [r]
  rfl

/-- What a write-back writes is the specification's result read through the block. -/
theorem flushed_eq (c : Dev nD) (hR : RealArgs m x d c) (t : Fin cfg0.N) (hf : (cfg0.win 2).flush t = true) :
    (dats m 0 c).flushed 2 t = ((cfg0.win 2).blk t).view.read (Elt Ideal) (result x d) := by
  have h3 : t.val % 4 = 3 := (flush0_2 t).mp hf
  obtain ⟨o0, o1, o2⟩ := out_index t
  rw [Cert.KernelIdeal.Value.flushed2 m c t]
  refine funext fun (j : S8x1x2048.Idx) => ?_
  obtain ⟨b, q, n, rfl⟩ : ∃ (b : Fin 8) (q : Fin 1) (n : Fin 2048), j = ix3 b q n := ⟨j 0, j 1, j 2, eq_ix3 j⟩
  obtain rfl : q = 0 := Subsingleton.elim _ _
  show (outsAt0 m c t.val t.isLt).1 (ix3 b 0 n) = result x d (((cfg0.win 2).blk t).view.emb (ix3 b 0 n))
  rw [out_blk m x d c hR t h3 b n]
  refine congrArg (result x d) (funext fun a => Fin.ext ?_)
  match a with
  | ⟨0, _⟩ => show 8 * (t.val / 4) + b.val = win0_2.index t 0 * 8 + 1 * b.val; rw [o0]; omega
  | ⟨1, _⟩ => show 0 = win0_2.index t 1 * 1 + 1 * 0; rw [o1]
  | ⟨2, _⟩ => show n.val = win0_2.index t 2 * 2048 + 1 * n.val; rw [o2]; omega

/-- The output array after the run is the specification's result. -/
theorem final (c : Dev nD) (hR : RealArgs m x d c) : (dats m 0 c).arrAt 2 cfg0.N = result x d :=
  (dats m 0 c).arrAt_eq_of_cover 2 (result x d) (fun t hf => flushed_eq m x d c hR t hf) out_cover

/-- The run: on every device the result array at the specification's result of that device's (real) arguments, the
    arguments unchanged. -/
theorem run (xs : Dev nD → Fin 64 → Fin 2048 → Fin 1024 → ℝ) (ds : Dev nD → Fin 64 → Fin 1024 → ℝ)
    (hR : ∀ c, RealArgs m (xs c) (ds c) c) :
    θ_run defs (onTc (τ := τ) (main (F := Ideal))) ⟨m, fun _ => 0, ρ⟩ fun r => ∀ c : Dev nD,
      r.2.mem ((c : Thread nD τ).loc main_v1) = result (xs c) (ds c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m (xs c) (ds c) c (hR c)), (h c).2⟩)
    (Cert.KernelIdeal.Value.run_blocks m ρ)

end Cert.Attn.Kernel

end
-- ==== Proof.RefValue.lean ====
import proofs.«156267_j3332894622054_2_alg».proof.Proof.Gen.ReferenceIdeal.Read
import proofs.«156267_j3332894622054_2_alg».proof.Proof.Spec
import Idealize.ShloMosaic.Lib.ValueIdx
import Idealize.ShloMosaic.Lib.Pipeline.Value
import Idealize.ShloMosaic.PureOps.Ideal.Laws

/-!
# The reference computes the specification

Read one operation at a time at an index: the scores are the dot products, their row maximum is taken from `⊥`,
the exponentials of the differences are summed from `0`, each is divided by that sum, the weights are contracted
against the keys, and the query is laid in front of the context along the last axis. On inputs that are real numbers
this is the specification's result.
-/

noncomputable section

namespace Cert.Attn.Ref

open Idealize.ShloMosaic Idealize.ShloMosaic.ValueIdx Cert.OnlineSoftmax Cert.Attn
open Cert.ReferenceIdeal Cert.ReferenceIdeal.Gen Cert.ReferenceIdeal.Read

/-- The pattern of minus infinity denotes the least extended real. -/
theorem ofBits_neg_inf : Ideal.ofBits .f32 0xFF800000#32 = (⊥ : EReal) := by
  simp [Ideal.ofBits, Ideal.ieee]

section
variable (X : (⟨S64x2048x1024, .f32⟩ : BufTy).Contents (Elt Ideal)) (D : (⟨S64x1024, .f32⟩ : BufTy).Contents (Elt Ideal))
    (x : Fin 64 → Fin 2048 → Fin 1024 → ℝ) (d : Fin 64 → Fin 1024 → ℝ)
    (hX : ∀ a b c, X (ix3 a b c) = ((x a b c : ℝ) : EReal)) (hD : ∀ a c, D (ix2 a c) = ((d a c : ℝ) : EReal))
include hD

/-- The query laid out with a unit axis has the query's entries. -/
theorem query_apply (a : Fin 64) (b : Fin 1) (c : Fin 1024) :
    val_main_v0 (F := Ideal) D (ix3 a b c) = ((d a c : ℝ) : EReal) := by
  rw [val_main_v0_apply]
  have e : idx_main_v0 (ix3 a b c) = ix2 a c :=
    funext fun t => Fin.ext (by match t with | ⟨0, _⟩ => rfl | ⟨1, _⟩ => rfl)
  rw [e, hD]

include hX

/-- Each score is the dot product of the query with a key. -/
theorem score_apply (a : Fin 64) (b : Fin 1) (k : Fin 2048) :
    val_main_v1 (F := Ideal) X D (ix3 a b k) = ((score x d a k : ℝ) : EReal) := by
  rw [val_main_v1_apply]
  have hl : ∀ e : Fin 1024, lidx_main_v1 (ix3 a b k) e = ix3 a b e := fun e =>
    funext fun t => Fin.ext (by match t with | ⟨0, _⟩ => rfl | ⟨1, _⟩ => rfl | ⟨2, _⟩ => rfl)
  have hr : ∀ e : Fin 1024, ridx_main_v1 (ix3 a b k) e = ix3 a k e := fun e =>
    funext fun t => Fin.ext (by match t with | ⟨0, _⟩ => rfl | ⟨1, _⟩ => rfl | ⟨2, _⟩ => rfl)
  simp only [hl, hr, query_apply D d hD, hX]
  exact coe_sum_mul Finset.univ (fun e => d a e) (fun e => x a k e)

/-- The row maximum taken from the least element is the largest score. -/
theorem max_apply (a : Fin 64) (b : Fin 1) :
    val_main_v4 (F := Ideal) X D (ix2 a b) = ((tileMax (score x d a) : ℝ) : EReal) := by
  have h : S64x1x2048.Reduces [2] S64x1 := by decide
  rw [val_main_v4_apply, val_main_v3_apply, val_main_cst_0_apply]
  unfold val_main_v2
  rw [Host.reduce_eq_fold_single FloatOps.maximumf _ _ reducesTo_S64x1x2048_S64x1_d2 h h_S_, val_main_cst_apply]
  have hs : (val_main_v1 (F := Ideal) X D ∘ h.lift (ix2 a b)) = fun k : Fin 2048 => ((score x d a k : ℝ) : EReal) := by
    refine funext fun (k : Fin 2048) => ?_
    have e : h.lift (ix2 a b) k = ix3 a b k :=
      funext fun t => Fin.ext (by match t with | ⟨0, _⟩ => rfl | ⟨1, _⟩ => rfl | ⟨2, _⟩ => rfl)
    show val_main_v1 (F := Ideal) X D (h.lift (ix2 a b) k) = _
    rw [e, score_apply X D x d hX hD]
  rw [hs, Ideal.ofBits_def, ofBits_neg_inf]
  exact bot_max_fold (score x d a)

/-- Each exponential is of the score less the row maximum. -/
theorem exp_apply (a : Fin 64) (b : Fin 1) (k : Fin 2048) :
    val_main_v8 (F := Ideal) X D (ix3 a b k)
      = Ideal.exp (((score x d a k : ℝ) : EReal) - ((tileMax (score x d a) : ℝ) : EReal)) := by
  rw [val_main_v8_apply, val_main_v7_apply, val_main_v6_apply, val_main_v5_apply]
  have e : idx_main_v5 (idx_main_v6 (ix3 a b k)) = ix2 a (0 : Fin 1) :=
    funext fun t => Fin.ext (by match t with | ⟨0, _⟩ => rfl | ⟨1, _⟩ => rfl)
  rw [e, max_apply X D x d hX hD, score_apply X D x d hX hD, Ideal.hostUnary_exp_def, Ideal.subf_def]

/-- The exponentials of a row are summed from zero. -/
theorem sum_apply (a : Fin 64) (b : Fin 1) :
    val_main_v9 (F := Ideal) X D (ix2 a b)
      = 0 + ∑ k : Fin 2048, Ideal.exp (((score x d a k : ℝ) : EReal) - ((tileMax (score x d a) : ℝ) : EReal)) := by
  rw [val_main_v9_apply, val_main_cst_1_apply, Ideal.ofBits_def, Ideal.ofBits_zero_f32]
  have e : ∀ k : Fin 2048, idx_main_v9 (ix2 a b) k = ix3 a b k := fun k =>
    funext fun t => Fin.ext (by match t with | ⟨0, _⟩ => rfl | ⟨1, _⟩ => rfl | ⟨2, _⟩ => rfl)
  simp only [e, exp_apply X D x d hX hD]

/-- Each weight is its exponential divided by the row's sum. -/
theorem weight_apply (a : Fin 64) (b : Fin 1) (k : Fin 2048) :
    val_main_v12 (F := Ideal) X D (ix3 a b k)
      = Ideal.div (Ideal.exp (((score x d a k : ℝ) : EReal) - ((tileMax (score x d a) : ℝ) : EReal)))
          (0 + ∑ k' : Fin 2048, Ideal.exp (((score x d a k' : ℝ) : EReal) - ((tileMax (score x d a) : ℝ) : EReal))) := by
  rw [val_main_v12_apply, val_main_v11_apply, val_main_v10_apply]
  have e : idx_main_v10 (idx_main_v11 (ix3 a b k)) = ix2 a (0 : Fin 1) :=
    funext fun t => Fin.ext (by match t with | ⟨0, _⟩ => rfl | ⟨1, _⟩ => rfl)
  rw [e, sum_apply X D x d hX hD, exp_apply X D x d hX hD, Ideal.hostDivf_def]

/-- The weights contracted against the keys give the context. -/
theorem ctx_apply (a : Fin 64) (b : Fin 1) (h : Fin 1024) :
    val_main_v13 (F := Ideal) X D (ix3 a b h) = ((context x d a h : ℝ) : EReal) := by
  rw [val_main_v13_apply]
  have hl : ∀ k : Fin 2048, lidx_main_v13 (ix3 a b h) k = ix3 a b k := fun k =>
    funext fun t => Fin.ext (by match t with | ⟨0, _⟩ => rfl | ⟨1, _⟩ => rfl | ⟨2, _⟩ => rfl)
  have hr : ∀ k : Fin 2048, ridx_main_v13 (ix3 a b h) k = ix3 a k h := fun k =>
    funext fun t => Fin.ext (by match t with | ⟨0, _⟩ => rfl | ⟨1, _⟩ => rfl | ⟨2, _⟩ => rfl)
  simp only [hl, hr, weight_apply X D x d hX hD, hX]
  exact sum_div_mul (score x d a) (fun k => x a k h) (tileMax (score x d a))

end

/-- Below the query's length the result is the query. -/
theorem result_left (x : Fin 64 → Fin 2048 → Fin 1024 → ℝ) (d : Fin 64 → Fin 1024 → ℝ)
    (a : Fin 64) (b : Fin 1) (c : Fin 2048) (hc : c.val < 1024) :
    result x d (ix3 a b c) = ((d a ⟨c.val, hc⟩ : ℝ) : EReal) := by
  show (if h : c.val < 1024 then ((d a ⟨c.val, h⟩ : ℝ) : EReal) else _) = _
  rw [dif_pos hc]

/-- From the query's length on the result is the context. -/
theorem result_right (x : Fin 64 → Fin 2048 → Fin 1024 → ℝ) (d : Fin 64 → Fin 1024 → ℝ)
    (a : Fin 64) (b : Fin 1) (c : Fin 2048) (hc : ¬ c.val < 1024) :
    result x d (ix3 a b c) = ((context x d a ⟨c.val - 1024, by have := c.isLt; omega⟩ : ℝ) : EReal) := by
  show (if h : c.val < 1024 then ((d a ⟨c.val, h⟩ : ℝ) : EReal) else _) = _
  rw [dif_neg hc]

/-- On real inputs the reference's last stage is the specification's result array. -/
theorem ref_result (X : (⟨S64x2048x1024, .f32⟩ : BufTy).Contents (Elt Ideal)) (D : (⟨S64x1024, .f32⟩ : BufTy).Contents (Elt Ideal))
    (x : Fin 64 → Fin 2048 → Fin 1024 → ℝ) (d : Fin 64 → Fin 1024 → ℝ)
    (hX : ∀ a b c, X (ix3 a b c) = ((x a b c : ℝ) : EReal)) (hD : ∀ a c, D (ix2 a c) = ((d a c : ℝ) : EReal)) :
    val_main_v14 (F := Ideal) X D = Cert.Attn.result x d := by
  funext i
  obtain ⟨a, b, c, rfl⟩ : ∃ a b c, i = ix3 a b c := ⟨i 0, i 1, i 2, eq_ix3 i⟩
  unfold val_main_v14
  by_cases hc : c.val < 1024
  · rw [result_left x d a b c hc]
    rw [concatenate_pair_apply_left (2 : Fin S64x1x2048.rank) _ _ concatenates_S64x1x1024_S64x1x1024_S64x1x2048_d2
      (ix3 a b c) rfl (ix3 a b (⟨c.val, hc⟩ : Fin 1024))
      (fun t => by match t with | ⟨0, _⟩ => rfl | ⟨1, _⟩ => rfl | ⟨2, _⟩ => rfl)]
    exact query_apply D d hD a b _
  · rw [result_right x d a b c hc]
    have h2 : c.val - 1024 < 1024 := by have := c.isLt; omega
    rw [concatenate_pair_apply_right (2 : Fin S64x1x2048.rank) _ _ concatenates_S64x1x1024_S64x1x1024_S64x1x2048_d2
      (ix3 a b c) rfl rfl (ix3 a b (⟨c.val - 1024, h2⟩ : Fin 1024))
      (fun t ht => by
        match t with
        | ⟨0, _⟩ => rfl
        | ⟨1, _⟩ => rfl
        | ⟨2, _⟩ => exact absurd rfl ht)
      (by show c.val - 1024 + 1024 = c.val; omega)]
    exact ctx_apply X D x d hX hD a b _

end Cert.Attn.Ref

end
-- ==== Proof.Finite.lean ====
import proofs.«156267_j3332894622054_2_alg».proof.Pre_finite_inputs
import proofs.«156267_j3332894622054_2_alg».proof.Proof.Gen.Pre_finite_inputs
import Idealize.ShloMosaic.Lib.ReduceAll
import Idealize.ShloMosaic.Lib.ValueIdx
import Idealize.ShloMosaic.PureOps.Ideal.Laws

/-!
# Finite inputs are real numbers

The precondition says that every entry of the two argument arrays has absolute value below `+∞`. An extended real
with `|x| < +∞` is neither `+∞` nor `-∞`, hence the coercion of a real number; so both arrays are coercions of
real-valued arrays.
-/

noncomputable section

namespace Cert.Attn

open Idealize.ShloMosaic Idealize.ShloMosaic.ValueIdx

/-- The pattern of plus infinity denotes the greatest extended real. -/
theorem ofBits_pos_inf : Ideal.ofBits .f32 0x7F800000#32 = (⊤ : EReal) := by
  simp [Ideal.ofBits, Ideal.ieee]

/-- An extended real whose absolute value is strictly below `+∞` is a real number. -/
theorem real_of_abs_lt_top (v : EReal) (h : Ideal.cmp .olt (max v (-v)) (⊤ : EReal) = 1#1) : ∃ r : ℝ, v = (r : EReal) := by
  induction v using EReal.rec with
  | bot => exfalso; revert h; simp [Ideal.cmp]
  | coe r => exact ⟨r, rfl⟩
  | top => exfalso; revert h; simp [Ideal.cmp]

/-- One entry's test, read at the ideal values: the comparison of `|v|` with the constant's value. -/
theorem entry_test {s : Shape} (A : FVec Ideal s .f32) (hb : Cert.Pre_finite_inputs.S_.BroadcastsInDim s (![] : Fin 0 → Fin s.rank)) (i : s.Idx) :
    cmpf .olt (Host.absf A) (broadcastInDim s ![] hb (constant Cert.Pre_finite_inputs.S_ .f32 0x7F800000#32)) i
      = Ideal.cmp .olt (max (A i) (-(A i))) (⊤ : EReal) := by
  show Ideal.cmp .olt (max (A i) (-(A i))) (Ideal.ofBits .f32 0x7F800000#32) = _
  rw [ofBits_pos_inf]

/-- Under the precondition both argument arrays are, entry by entry, real numbers. -/
theorem real_inputs [Cert.Pre_finite_inputs.Facts]
    (X : FVec Ideal Cert.Pre_finite_inputs.S64x2048x1024 .f32) (D : FVec Ideal Cert.Pre_finite_inputs.S64x1024 .f32)
    (h : Cert.Pre_finite_inputs.fn (F := Ideal) X D = fun _ => 1#1) :
    ∃ (x : Fin 64 → Fin 2048 → Fin 1024 → ℝ) (d : Fin 64 → Fin 1024 → ℝ),
      (∀ a b e, X (ix3 a b e) = ((x a b e : ℝ) : EReal)) ∧ (∀ a e, D (ix2 a e) = ((d a e : ℝ) : EReal)) := by
  haveI : Subsingleton Cert.Pre_finite_inputs.S_.Idx := ⟨fun a b => funext fun t => t.elim0⟩
  have e := congrFun h ix0
  dsimp only [Cert.Pre_finite_inputs.fn] at e
  obtain ⟨e1, e2⟩ := IntOp.andi_eq_one.1 e
  have hXr : ∀ i, ∃ r : ℝ, X i = (r : EReal) := fun i =>
    real_of_abs_lt_top _ ((entry_test X _ i).symm.trans (Host.reduce_andi_all _ _ _ _ _ e1 i))
  have hDr : ∀ i, ∃ r : ℝ, D i = (r : EReal) := fun i =>
    real_of_abs_lt_top _ ((entry_test D _ i).symm.trans (Host.reduce_andi_all _ _ _ _ _ e2 i))
  choose x hx using hXr
  choose d hd using hDr
  exact ⟨fun a b e => x (ix3 a b e), fun a e => d (ix2 a e), fun a b e => hx _, fun a e => hd _⟩

end Cert.Attn

end
-- ==== Proof.lean ====
/-
  An attention step, fused: for each of 64 batch rows the query (1024 features) is scored against 2048 keys by dot
  products, the scores are turned into softmax weights, and the context is the weighted sum of the same key rows; the
  result row is the query followed by the context.

  The kernel walks the keys in four tiles of 512 and never holds a whole row of scores. It carries, per batch row, a
  running maximum `m`, a running sum `l` of `exp (score - m)` and running weighted sums `a` of
  `exp (score - m) * key`; when a tile raises the maximum from `m` to `m'` it rescales `l` and `a` by
  `exp (m - m')`, because `exp (m - m') * exp (s - m) = exp (s - m')`, and at the last tile it writes `a / l`. The
  reference takes the maximum `M` of the whole row, the weights `exp (s - M) / ∑ exp (s - M)`, and sums weight times key.
  On the extended reals, with every input finite, every score is a real number, `l` is a positive real after the first
  tile, and both programs compute `(∑ exp (s k - M) * key k) / (∑ exp (s k - M))`: the kernel because its running
  quantities after the fourth tile are the sums over the whole row relative to the whole row's maximum
  (Proof/OnlineSoftmax.lean), the reference because dividing each weight first and summing afterwards is the same
  quotient when the divisor is a nonzero real. The first tile starts from `m = -∞`, `l = 0`, `a = 0`:
  `exp (-∞ - m') = 0` multiplies zeros, so the reset values drop out.

  The modules: Proof/OnlineSoftmax.lean (the recurrence and its closed form, pure), Proof/Spec.lean (the result as a
  function of real arrays), Proof/Pieces.lean (what each grid point leaves in the carried buffers and the output block),
  Proof/Payloads.lean (the body's arithmetic entry by entry), Proof/Trip.lean (one tile on real data), Proof/Blocks.lean
  (which entries of the arrays a grid point sees), Proof/Invariant.lean (the carried buffers hold the running
  quantities), Proof/Cover.lean and Proof/Final.lean (the output array is the specification's result),
  Proof/RefValue.lean (the reference computes the specification), Proof/Finite.lean (finite inputs are real numbers).
-/
import proofs.«156267_j3332894622054_2_alg».proof.Defs
import proofs.«156267_j3332894622054_2_alg».proof.Proof.Gen.Kernel
import proofs.«156267_j3332894622054_2_alg».proof.Proof.Gen.Kernel.Skeleton
import proofs.«156267_j3332894622054_2_alg».proof.Proof.Gen.Kernel.Launch
import proofs.«156267_j3332894622054_2_alg».proof.Proof.Gen.Kernel.Points
import proofs.«156267_j3332894622054_2_alg».proof.Proof.Gen.Kernel.Frame
import proofs.«156267_j3332894622054_2_alg».proof.Proof.Gen.KernelIdeal
import proofs.«156267_j3332894622054_2_alg».proof.Proof.Gen.KernelIdeal.Skeleton
import proofs.«156267_j3332894622054_2_alg».proof.Proof.Gen.KernelIdeal.Launch
import proofs.«156267_j3332894622054_2_alg».proof.Proof.Gen.KernelIdeal.Points
import proofs.«156267_j3332894622054_2_alg».proof.Proof.Gen.KernelIdeal.Frame
import proofs.«156267_j3332894622054_2_alg».proof.Proof.Gen.ReferenceIdeal
import proofs.«156267_j3332894622054_2_alg».proof.Proof.Gen.Pre_finite_inputs
import proofs.«156267_j3332894622054_2_alg».proof.Proof.Gen.KernelIdeal.Value
import proofs.«156267_j3332894622054_2_alg».proof.Proof.Gen.ReferenceIdeal.Run
import proofs.«156267_j3332894622054_2_alg».proof.Proof.Gen.ReferenceIdeal.Read
import proofs.«156267_j3332894622054_2_alg».proof.Proof.Final
import proofs.«156267_j3332894622054_2_alg».proof.Proof.RefValue
import proofs.«156267_j3332894622054_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs both idealized programs end at the specification's result of the (real) inputs. -/
theorem algebraic : Cert.algebraic_KernelIdeal_ReferenceIdeal := by
  intro m ρ m' ρ' hpre hagree
  choose xs ds hx hd using fun c : Dev Cert.KernelIdeal.nD => Cert.Attn.real_inputs _ _ (hpre c)
  refine ⟨fun c => Cert.Attn.result (xs c) (ds c),
    Cert.Attn.Kernel.run m ρ xs ds (fun c => ⟨hx c, hd c⟩), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, (hagree c).1, (hagree c).2]
  exact Cert.Attn.Ref.ref_result _ _ (xs c) (ds c) (hx c) (hd c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
